-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v167)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S16x128 : Shape := ⟨2, ![16, 128]⟩
abbrev S16 : Shape := ⟨1, ![16]⟩
abbrev S600000 : Shape := ⟨1, ![600000]⟩
abbrev S100000 : Shape := ⟨1, ![100000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S128x128 .f32) (main_arg8 : FVec F S128 .f32) (main_arg9 : FVec F S16x128 .f32) (main_arg10 : FVec F S16 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S16x128 .f32 := Host.absf main_arg9
  let main_cst_16 : FVec F S_ .f32 := constant S_ .f32 0x7F800000#32
  let main_v45 : FVec F S16x128 .f32 := broadcastInDim S16x128 ![] bcast_S_S16x128 main_cst_16
  let main_v46 : IVec S16x128 1 := cmpf .olt main_v44 main_v45
  let main_c_17 : IVec S_ 1 := constantI S_ 1 1#1
  let main_v47 : IVec S_ 1 := (fun x v => Host.reduce IntOp.andi x v reducesTo_S16x128_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S16x128 .f32) (main_arg10 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S200000x128 .f32) (main_arg1 : FVec F S100000x128 .f32) (main_arg2 : FVec F S20000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S16x128 .f32) (main_arg10 : FVec F S16 .f32) (main_arg11 : IVec S600000 32) (main_arg12 : IVec S600000 32) (main_arg13 : IVec S600000 32) (main_arg14 : IVec S600000 32) (main_arg15 : IVec S100000 32) (main_arg16 : IVec S100000 32) (main_arg17 : IVec S100000 32) (main_arg18 : IVec S100000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S20000x128 .f32 := Host.absf main_arg2
  let main_cst_2 : FVec F S_ .f32 := constant S_ .f32 0x7F800000#32
  let main_v10 : FVec F S20000x128 .f32 := broadcastInDim S20000x128 ![] bcast_S_S20000x128 main_cst_2
  let main_v11 : IVec S20000x128 1 := cmpf .olt main_v9 main_v10
  let main_c_3 : IVec S_ 1 := constantI S_ 1 1#1
  let main_v12 : IVec S_ 1 := (fun x v => Host.reduce IntOp.andi x v reducesTo_S20000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S200000x128 : Shape := ⟨2, ![200000, 128]⟩
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S16x128 : Shape := ⟨2, ![16, 128]⟩
abbrev S16 : Shape := ⟨1, ![16]⟩
abbrev S600000 : Shape := ⟨1, ![600000]⟩
abbrev S100000 : Shape := ⟨1, ![100000]⟩
abbrev S10000x128 : Shape := ⟨2, ![10000, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S200000 : Shape := ⟨1, ![200000]⟩
abbrev S200000x1 : Shape := ⟨2, ![200000, 1]⟩
abbrev S20000 : Shape := ⟨1, ![20000]⟩
abbrev S20000x1 : Shape := ⟨2, ![20000, 1]⟩
abbrev S5000x128 : Shape := ⟨2, ![5000, 128]⟩
abbrev S100000x16 : Shape := ⟨2, ![100000, 16]⟩
abbrev S10000x16 : Shape := ⟨2, ![10000, 16]⟩
abbrev S1x16 : Shape := ⟨2, ![1, 16]⟩

abbrev nBuf : Space → Nat
  | .hbm => 237
  | .vmem => 60
  | .smem => 0
  | _ => 0

abbrev hbmTy0_0 (i : Nat) : BufTy := match i % 128 with
  | 0 => ⟨S200000x128, .f32⟩
  | 1 => ⟨S100000x128, .f32⟩
  | 2 => ⟨S20000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S16x128, .f32⟩
  | 10 => ⟨S16, .f32⟩
  | 11 => ⟨S600000, .i32⟩
  | 12 => ⟨S600000, .i32⟩
  | 13 => ⟨S600000, .i32⟩
  | 14 => ⟨S600000, .i32⟩
  | 15 => ⟨S100000, .i32⟩
  | 16 => ⟨S100000, .i32⟩
  | 17 => ⟨S100000, .i32⟩
  | 18 => ⟨S100000, .i32⟩
  | 19 => ⟨S200000x128, .f32⟩
  | 20 => ⟨S100000x128, .f32⟩
  | 21 => ⟨S20000x128, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .f32⟩
  | 32 => ⟨S100000x128, .f32⟩
  | 33 => ⟨S600000x1, .i32⟩
  | 34 => ⟨S100000x128, .f32⟩
  | 35 => ⟨S_, .f32⟩
  | 36 => ⟨S600000, .f32⟩
  | 37 => ⟨S_, .f32⟩
  | 38 => ⟨S100000, .f32⟩
  | 39 => ⟨S600000x1, .i32⟩
  | 40 => ⟨S100000, .f32⟩
  | 41 => ⟨S_, .f32⟩
  | 42 => ⟨S100000, .f32⟩
  | 43 => ⟨S100000, .f32⟩
  | 44 => ⟨S100000x1, .f32⟩
  | 45 => ⟨S100000x128, .f32⟩
  | 46 => ⟨S100000x128, .f32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S100000x128, .f32⟩
  | 56 => ⟨S_, .f32⟩
  | 57 => ⟨S100000x128, .f32⟩
  | 58 => ⟨S100000x1, .i32⟩
  | 59 => ⟨S100000x128, .f32⟩
  | 60 => ⟨S_, .f32⟩
  | 61 => ⟨S100000, .f32⟩
  | 62 => ⟨S_, .f32⟩
  | 63 => ⟨S100000, .f32⟩
  | 64 => ⟨S100000x1, .i32⟩
  | 65 => ⟨S100000, .f32⟩
  | 66 => ⟨S_, .f32⟩
  | 67 => ⟨S100000, .f32⟩
  | 68 => ⟨S100000, .f32⟩
  | 69 => ⟨S100000x1, .f32⟩
  | 70 => ⟨S100000x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S_, .f32⟩
  | 86 => ⟨S200000x128, .f32⟩
  | 87 => ⟨S600000x1, .i32⟩
  | 88 => ⟨S200000x128, .f32⟩
  | 89 => ⟨S_, .f32⟩
  | 90 => ⟨S600000, .f32⟩
  | 91 => ⟨S_, .f32⟩
  | 92 => ⟨S200000, .f32⟩
  | 93 => ⟨S600000x1, .i32⟩
  | 94 => ⟨S200000, .f32⟩
  | 95 => ⟨S_, .f32⟩
  | 96 => ⟨S200000, .f32⟩
  | 97 => ⟨S200000, .f32⟩
  | 98 => ⟨S200000x1, .f32⟩
  | 99 => ⟨S200000x128, .f32⟩
  | 100 => ⟨S200000x128, .f32⟩
  | 101 => ⟨S_, .i32⟩
  | 102 => ⟨S100000, .i32⟩
  | 103 => ⟨S100000, .i1⟩
  | 104 => ⟨S_, .i32⟩
  | 105 => ⟨S100000, .i32⟩
  | 106 => ⟨S100000, .i32⟩
  | 107 => ⟨S100000, .i32⟩
  | 108 => ⟨S100000x1, .i32⟩
  | 109 => ⟨S100000x128, .f32⟩
  | 110 => ⟨S_, .f32⟩
  | 111 => ⟨S20000x128, .f32⟩
  | 112 => ⟨S100000x1, .i32⟩
  | 113 => ⟨S20000x128, .f32⟩
  | 114 => ⟨S_, .f32⟩
  | 115 => ⟨S100000, .f32⟩
  | 116 => ⟨S_, .f32⟩
  | 117 => ⟨S20000, .f32⟩
  | 118 => ⟨S100000x1, .i32⟩
  | 119 => ⟨S20000, .f32⟩
  | 120 => ⟨S_, .f32⟩
  | 121 => ⟨S20000, .f32⟩
  | 122 => ⟨S20000, .f32⟩
  | 123 => ⟨S20000x1, .f32⟩
  | 124 => ⟨S20000x128, .f32⟩
  | 125 => ⟨S20000x128, .f32⟩
  | 126 => ⟨S200000x128, .f32⟩
  | 127 => ⟨S100000x128, .f32⟩
  | _ => ⟨S200000x128, .f32⟩

abbrev hbmTy0_1 (i : Nat) : BufTy := match i % 128 with
  | 0 => ⟨S20000x128, .f32⟩
  | 1 => ⟨S_, .i32⟩
  | 2 => ⟨S600000, .i32⟩
  | 3 => ⟨S600000, .i1⟩
  | 4 => ⟨S_, .i32⟩
  | 5 => ⟨S600000, .i32⟩
  | 6 => ⟨S600000, .i32⟩
  | 7 => ⟨S600000, .i32⟩
  | 8 => ⟨S600000x1, .i32⟩
  | 9 => ⟨S600000x128, .f32⟩
  | 10 => ⟨S_, .f32⟩
  | 11 => ⟨S100000x128, .f32⟩
  | 12 => ⟨S600000x1, .i32⟩
  | 13 => ⟨S100000x128, .f32⟩
  | 14 => ⟨S_, .f32⟩
  | 15 => ⟨S600000, .f32⟩
  | 16 => ⟨S_, .f32⟩
  | 17 => ⟨S100000, .f32⟩
  | 18 => ⟨S600000x1, .i32⟩
  | 19 => ⟨S100000, .f32⟩
  | 20 => ⟨S_, .f32⟩
  | 21 => ⟨S100000, .f32⟩
  | 22 => ⟨S100000, .f32⟩
  | 23 => ⟨S100000x1, .f32⟩
  | 24 => ⟨S100000x128, .f32⟩
  | 25 => ⟨S100000x128, .f32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S100000x128, .f32⟩
  | 35 => ⟨S_, .f32⟩
  | 36 => ⟨S100000x128, .f32⟩
  | 37 => ⟨S100000x1, .i32⟩
  | 38 => ⟨S100000x128, .f32⟩
  | 39 => ⟨S_, .f32⟩
  | 40 => ⟨S100000, .f32⟩
  | 41 => ⟨S_, .f32⟩
  | 42 => ⟨S100000, .f32⟩
  | 43 => ⟨S100000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x128, .f32⟩
  | 64 => ⟨S_, .f32⟩
  | 65 => ⟨S200000x128, .f32⟩
  | 66 => ⟨S600000x1, .i32⟩
  | 67 => ⟨S200000x128, .f32⟩
  | 68 => ⟨S_, .f32⟩
  | 69 => ⟨S600000, .f32⟩
  | 70 => ⟨S_, .f32⟩
  | 71 => ⟨S200000, .f32⟩
  | 72 => ⟨S600000x1, .i32⟩
  | 73 => ⟨S200000, .f32⟩
  | 74 => ⟨S_, .f32⟩
  | 75 => ⟨S200000, .f32⟩
  | 76 => ⟨S200000, .f32⟩
  | 77 => ⟨S200000x1, .f32⟩
  | 78 => ⟨S200000x128, .f32⟩
  | 79 => ⟨S200000x128, .f32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000x128, .f32⟩
  | 89 => ⟨S_, .f32⟩
  | 90 => ⟨S20000x128, .f32⟩
  | 91 => ⟨S100000x1, .i32⟩
  | 92 => ⟨S20000x128, .f32⟩
  | 93 => ⟨S_, .f32⟩
  | 94 => ⟨S100000, .f32⟩
  | 95 => ⟨S_, .f32⟩
  | 96 => ⟨S20000, .f32⟩
  | 97 => ⟨S100000x1, .i32⟩
  | 98 => ⟨S20000, .f32⟩
  | 99 => ⟨S_, .f32⟩
  | 100 => ⟨S20000, .f32⟩
  | 101 => ⟨S20000, .f32⟩
  | 102 => ⟨S20000x1, .f32⟩
  | 103 => ⟨S20000x128, .f32⟩
  | 104 => ⟨S20000x128, .f32⟩
  | 105 => ⟨S200000x128, .f32⟩
  | 106 => ⟨S100000x128, .f32⟩
  | 107 => ⟨S20000x128, .f32⟩
  | 108 => ⟨S100000x16, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S128, .f32⟩
  | .local _ .vmem, ⟨16, _⟩ => ⟨S10000x128, .f32⟩
  | .local _ .vmem, ⟨17, _⟩ => ⟨S10000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S10000x128, .f32⟩
  | .local _ .vmem, ⟨55, _⟩ => ⟨S10000x128, .f32⟩
  | .local _ .vmem, ⟨56, _⟩ => ⟨S16x128, .f32⟩
  | .local _ .vmem, ⟨57, _⟩ => ⟨S16, .f32⟩
  | .local _ .vmem, ⟨58, _⟩ => ⟨S10000x16, .f32⟩
  | .local _ .vmem, ⟨59, _⟩ => ⟨S10000x16, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_6 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_cst_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_9 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_10 : Ref sig .tc := ⟨.hbm, 73, rfl⟩
abbrev main_v42 : Ref sig .tc := ⟨.hbm, 74, rfl⟩
abbrev main_v43 : Ref sig .tc := ⟨.hbm, 75, rfl⟩
abbrev main_c_11 : Ref sig .tc := ⟨.hbm, 76, rfl⟩
abbrev main_v44 : Ref sig .tc := ⟨.hbm, 77, rfl⟩
abbrev main_v45 : Ref sig .tc := ⟨.hbm, 78, rfl⟩
abbrev main_c_12 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_13 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_14 : Ref sig .tc := ⟨.hbm, 89, rfl⟩
abbrev main_v54 : Ref sig .tc := ⟨.hbm, 90, rfl⟩
abbrev main_cst_15 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_16 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_17 : Ref sig .tc := ⟨.hbm, 101, rfl⟩
abbrev main_v63 : Ref sig .tc := ⟨.hbm, 102, rfl⟩
abbrev main_v64 : Ref sig .tc := ⟨.hbm, 103, rfl⟩
abbrev main_c_18 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_19 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_20 : Ref sig .tc := ⟨.hbm, 114, rfl⟩
abbrev main_v73 : Ref sig .tc := ⟨.hbm, 115, rfl⟩
abbrev main_cst_21 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_22 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_23 : Ref sig .tc := ⟨.hbm, 129, rfl⟩
abbrev main_v85 : Ref sig .tc := ⟨.hbm, 130, rfl⟩
abbrev main_v86 : Ref sig .tc := ⟨.hbm, 131, rfl⟩
abbrev main_c_24 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_25 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_26 : Ref sig .tc := ⟨.hbm, 142, rfl⟩
abbrev main_v95 : Ref sig .tc := ⟨.hbm, 143, rfl⟩
abbrev main_cst_27 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_28 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_c_29 : Ref sig .tc := ⟨.hbm, 154, rfl⟩
abbrev main_v104 : Ref sig .tc := ⟨.hbm, 155, rfl⟩
abbrev main_v105 : Ref sig .tc := ⟨.hbm, 156, rfl⟩
abbrev main_c_30 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_cst_31 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_cst_32 : Ref sig .tc := ⟨.hbm, 167, rfl⟩
abbrev main_v114 : Ref sig .tc := ⟨.hbm, 168, rfl⟩
abbrev main_cst_33 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_34 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_35 : Ref sig .tc := ⟨.hbm, 180, rfl⟩
abbrev main_v124 : Ref sig .tc := ⟨.hbm, 181, rfl⟩
abbrev main_v125 : Ref sig .tc := ⟨.hbm, 182, rfl⟩
abbrev main_c_36 : Ref sig .tc := ⟨.hbm, 183, rfl⟩
abbrev main_v126 : Ref sig .tc := ⟨.hbm, 184, rfl⟩
abbrev main_v127 : Ref sig .tc := ⟨.hbm, 185, rfl⟩
abbrev main_c_37 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_cst_38 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_cst_39 : Ref sig .tc := ⟨.hbm, 196, rfl⟩
abbrev main_v136 : Ref sig .tc := ⟨.hbm, 197, rfl⟩
abbrev main_cst_40 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_cst_41 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_c_42 : Ref sig .tc := ⟨.hbm, 208, rfl⟩
abbrev main_v145 : Ref sig .tc := ⟨.hbm, 209, rfl⟩
abbrev main_v146 : Ref sig .tc := ⟨.hbm, 210, rfl⟩
abbrev main_c_43 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_cst_44 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_cst_45 : Ref sig .tc := ⟨.hbm, 221, rfl⟩
abbrev main_v155 : Ref sig .tc := ⟨.hbm, 222, rfl⟩
abbrev main_cst_46 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_cst_47 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg3_0 : Ref sig .tc := ⟨.vmem, 58, rfl⟩
abbrev cc9_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem3_0 : DmaSem sig := 58
abbrev cc9_sem3_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S16x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S16 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x16 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S10000x128_S10000x128 : S10000x128.ShapeCasts S10000x128
  inb_S16x128_S16x128_0_0 : ∀ a, (![0, 0] : Fin 2 → Nat) a + S16x128.size a ≤ S16x128.size a
  h_S16x128 : 0 < S16x128.numel
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  dot_S10000x128_S128x128_S10000x128_1_1_0_0_n_n_wf : DotDims.WF S10000x128 S128x128 S10000x128 [1] [1] [0] [0] [] []
  gather_S200000x128_S600000x1_S600000x128_1_0_n_n_0_1_1128_wf : GatherDims.WF S200000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  gather_S20000x128_S100000x1_S100000x128_1_0_n_n_0_1_1128_wf : GatherDims.WF S20000x128 S100000x1 S100000x128 [1] [0] [] [0] [] 1 ![1, 128]
  scatter_S100000x128_S100000x1_S100000x128_1_0_0_1_wf : ScatterDims.WF S100000x128 S100000x1 S100000x128 [1] [0] [0] 1
  scatter_S100000_S100000x1_S100000_n_0_0_1_wf : ScatterDims.WF S100000 S100000x1 S100000 [] [0] [0] 1
  gather_S100000x128_S600000x1_S600000x128_1_0_n_n_0_1_1128_wf : GatherDims.WF S100000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  gather_S100000x128_S100000x1_S100000x128_1_0_n_n_0_1_1128_wf : GatherDims.WF S100000x128 S100000x1 S100000x128 [1] [0] [] [0] [] 1 ![1, 128]
  scatter_S20000x128_S100000x1_S100000x128_1_0_0_1_wf : ScatterDims.WF S20000x128 S100000x1 S100000x128 [1] [0] [0] 1
  scatter_S20000_S100000x1_S100000_n_0_0_1_wf : ScatterDims.WF S20000 S100000x1 S100000 [] [0] [0] 1
  dot_S10000x128_S16x128_S10000x16_1_1_0_0_n_n_wf : DotDims.WF S10000x128 S16x128 S10000x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S200000x128.size a
  hwx0_3 : ∀ i : grid0.Coords, EltTy.bits .f32 = 32 ∨ (Rect.block (s := S200000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S20000x128.size a
  hwx2_0 : ∀ i : grid2.Coords, EltTy.bits .f32 = 32 ∨ (Rect.block (s := S20000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S20000x128.size a
  hwx2_3 : ∀ i : grid2.Coords, EltTy.bits .f32 = 32 ∨ (Rect.block (s := S20000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S200000x128.size a
  hwx3_0 : ∀ i : grid3.Coords, EltTy.bits .f32 = 32 ∨ (Rect.block (s := S200000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S200000x128.size a
  hwx3_1 : ∀ i : grid3.Coords, EltTy.bits .f32 = 32 ∨ (Rect.block (s := S200000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S200000x128.size a
  hwx3_2 : ∀ i : grid3.Coords, EltTy.bits .f32 = 32 ∨ (Rect.block (s := S200000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S20000x128.size a
  hwx5_0 : ∀ i : grid5.Coords, EltTy.bits .f32 = 32 ∨ (Rect.block (s := S20000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S20000x128.size a
  hwx5_1 : ∀ i : grid5.Coords, EltTy.bits .f32 = 32 ∨ (Rect.block (s := S20000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S20000x128.size a
  hwx5_2 : ∀ i : grid5.Coords, EltTy.bits .f32 = 32 ∨ (Rect.block (s := S20000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S200000x128.size a
  hwx6_0 : ∀ i : grid6.Coords, EltTy.bits .f32 = 32 ∨ (Rect.block (s := S200000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S200000x128.size a
  hwx6_1 : ∀ i : grid6.Coords, EltTy.bits .f32 = 32 ∨ (Rect.block (s := S200000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S200000x128.size a
  hwx6_2 : ∀ i : grid6.Coords, EltTy.bits .f32 = 32 ∨ (Rect.block (s := S200000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S20000x128.size a
  hwx8_0 : ∀ i : grid8.Coords, EltTy.bits .f32 = 32 ∨ (Rect.block (s := S20000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S20000x128.size a
  hwx8_1 : ∀ i : grid8.Coords, EltTy.bits .f32 = 32 ∨ (Rect.block (s := S20000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S20000x128.size a
  hwx8_2 : ∀ i : grid8.Coords, EltTy.bits .f32 = 32 ∨ (Rect.block (s := S20000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x128.size a ≤ S100000x128.size a
  hwx9_0 : ∀ i : grid9.Coords, EltTy.bits .f32 = 32 ∨ (Rect.block (s := S100000x128) S10000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S16x128.size a ≤ S16x128.size a
  hwx9_1 : ∀ i : grid9.Coords, EltTy.bits .f32 = 32 ∨ (Rect.block (s := S16x128) S16x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S16.size a ≤ S16.size a
  hwx9_2 : ∀ i : grid9.Coords, EltTy.bits .f32 = 32 ∨ (Rect.block (s := S16) S16.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x16.size a ≤ S100000x16.size a
  hwx9_3 : ∀ i : grid9.Coords, EltTy.bits .f32 = 32 ∨ (Rect.block (s := S100000x16) S10000x16.size (cc9_transform_3 i) (hinb9_3 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S20000x128_S100000x1_S100000x128_1_0_n_n_0_1_1128 : GatherDims S20000x128 S100000x1 S100000x128 where
  offsetDims := [1]
  collapsedSliceDims := [0]
  operandBatchingDims := []
  startIndicesBatchingDims := []
  startIndexMap := [0]
  indexVectorDim := 1
  sliceSizes := ![1, 128]
  wf := gather_S20000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S20000x128_S100000x1_S100000x128_1_0_0_1 : ScatterDims S20000x128 S100000x1 S100000x128 where
  updateWindowDims := [1]
  insertedWindowDims := [0]
  scatterDimsToOperandDims := [0]
  indexVectorDim := 1
  wf := scatter_S20000x128_S100000x1_S100000x128_1_0_0_1_wf
def scatter_S20000_S100000x1_S100000_n_0_0_1 : ScatterDims S20000 S100000x1 S100000 where
  updateWindowDims := []
  insertedWindowDims := [0]
  scatterDimsToOperandDims := [0]
  indexVectorDim := 1
  wf := scatter_S20000_S100000x1_S100000_n_0_0_1_wf
def dot_S10000x128_S16x128_S10000x16_1_1_0_0_n_n : DotDims S10000x128 S16x128 S10000x16 where
  lhsContracting := [1]
  rhsContracting := [1]
  lhsNonContracting := [0]
  rhsNonContracting := [0]
  lhsBatch := []
  rhsBatch := []
  wf := dot_S10000x128_S16x128_S10000x16_1_1_0_0_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v82) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v1) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v2) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v84) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v82) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v144) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v164) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v83) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v125) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v165) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v84) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v163) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v166) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v165) S10000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg9) S16x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg10) S16.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v167) S10000x16.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S200000x128 : Shape := ⟨2, ![200000, 128]⟩
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S16x128 : Shape := ⟨2, ![16, 128]⟩
abbrev S16 : Shape := ⟨1, ![16]⟩
abbrev S600000 : Shape := ⟨1, ![600000]⟩
abbrev S100000 : Shape := ⟨1, ![100000]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S200000 : Shape := ⟨1, ![200000]⟩
abbrev S200000x1 : Shape := ⟨2, ![200000, 1]⟩
abbrev S20000 : Shape := ⟨1, ![20000]⟩
abbrev S20000x1 : Shape := ⟨2, ![20000, 1]⟩
abbrev S128x16 : Shape := ⟨2, ![128, 16]⟩
abbrev S100000x16 : Shape := ⟨2, ![100000, 16]⟩
abbrev S1x16 : Shape := ⟨2, ![1, 16]⟩

abbrev nBuf : Space → Nat
  | .hbm => 280
  | .vmem => 0
  | .smem => 0
  | _ => 0

abbrev hbmTy0_0 (i : Nat) : BufTy := match i % 128 with
  | 0 => ⟨S200000x128, .f32⟩
  | 1 => ⟨S100000x128, .f32⟩
  | 2 => ⟨S20000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S16x128, .f32⟩
  | 10 => ⟨S16, .f32⟩
  | 11 => ⟨S600000, .i32⟩
  | 12 => ⟨S600000, .i32⟩
  | 13 => ⟨S600000, .i32⟩
  | 14 => ⟨S600000, .i32⟩
  | 15 => ⟨S100000, .i32⟩
  | 16 => ⟨S100000, .i32⟩
  | 17 => ⟨S100000, .i32⟩
  | 18 => ⟨S100000, .i32⟩
  | 19 => ⟨S128x128, .f32⟩
  | 20 => ⟨S200000x128, .f32⟩
  | 21 => ⟨S1x128, .f32⟩
  | 22 => ⟨S200000x128, .f32⟩
  | 23 => ⟨S200000x128, .f32⟩
  | 24 => ⟨S_, .f32⟩
  | 25 => ⟨S200000x128, .f32⟩
  | 26 => ⟨S200000x128, .f32⟩
  | 27 => ⟨S128x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S128x128, .f32⟩
  | 36 => ⟨S20000x128, .f32⟩
  | 37 => ⟨S1x128, .f32⟩
  | 38 => ⟨S20000x128, .f32⟩
  | 39 => ⟨S20000x128, .f32⟩
  | 40 => ⟨S_, .f32⟩
  | 41 => ⟨S20000x128, .f32⟩
  | 42 => ⟨S20000x128, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x128, .f32⟩
  | 52 => ⟨S_, .f32⟩
  | 53 => ⟨S100000x128, .f32⟩
  | 54 => ⟨S600000x1, .i32⟩
  | 55 => ⟨S100000x128, .f32⟩
  | 56 => ⟨S_, .f32⟩
  | 57 => ⟨S600000, .f32⟩
  | 58 => ⟨S_, .f32⟩
  | 59 => ⟨S100000, .f32⟩
  | 60 => ⟨S600000x1, .i32⟩
  | 61 => ⟨S100000, .f32⟩
  | 62 => ⟨S_, .f32⟩
  | 63 => ⟨S100000, .f32⟩
  | 64 => ⟨S100000, .f32⟩
  | 65 => ⟨S100000x1, .f32⟩
  | 66 => ⟨S100000x128, .f32⟩
  | 67 => ⟨S100000x128, .f32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S100000x128, .f32⟩
  | 77 => ⟨S_, .f32⟩
  | 78 => ⟨S100000x128, .f32⟩
  | 79 => ⟨S100000x1, .i32⟩
  | 80 => ⟨S100000x128, .f32⟩
  | 81 => ⟨S_, .f32⟩
  | 82 => ⟨S100000, .f32⟩
  | 83 => ⟨S_, .f32⟩
  | 84 => ⟨S100000, .f32⟩
  | 85 => ⟨S100000x1, .i32⟩
  | 86 => ⟨S100000, .f32⟩
  | 87 => ⟨S_, .f32⟩
  | 88 => ⟨S100000, .f32⟩
  | 89 => ⟨S100000, .f32⟩
  | 90 => ⟨S100000x1, .f32⟩
  | 91 => ⟨S100000x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000x128, .f32⟩
  | 106 => ⟨S_, .f32⟩
  | 107 => ⟨S200000x128, .f32⟩
  | 108 => ⟨S600000x1, .i32⟩
  | 109 => ⟨S200000x128, .f32⟩
  | 110 => ⟨S_, .f32⟩
  | 111 => ⟨S600000, .f32⟩
  | 112 => ⟨S_, .f32⟩
  | 113 => ⟨S200000, .f32⟩
  | 114 => ⟨S600000x1, .i32⟩
  | 115 => ⟨S200000, .f32⟩
  | 116 => ⟨S_, .f32⟩
  | 117 => ⟨S200000, .f32⟩
  | 118 => ⟨S200000, .f32⟩
  | 119 => ⟨S200000x1, .f32⟩
  | 120 => ⟨S200000x128, .f32⟩
  | 121 => ⟨S200000x128, .f32⟩
  | 122 => ⟨S_, .i32⟩
  | 123 => ⟨S100000, .i32⟩
  | 124 => ⟨S100000, .i1⟩
  | 125 => ⟨S_, .i32⟩
  | 126 => ⟨S100000, .i32⟩
  | 127 => ⟨S100000, .i32⟩
  | _ => ⟨S200000x128, .f32⟩

abbrev hbmTy0_1 (i : Nat) : BufTy := match i % 128 with
  | 0 => ⟨S100000, .i32⟩
  | 1 => ⟨S100000x1, .i32⟩
  | 2 => ⟨S100000x128, .f32⟩
  | 3 => ⟨S_, .f32⟩
  | 4 => ⟨S20000x128, .f32⟩
  | 5 => ⟨S100000x1, .i32⟩
  | 6 => ⟨S20000x128, .f32⟩
  | 7 => ⟨S_, .f32⟩
  | 8 => ⟨S100000, .f32⟩
  | 9 => ⟨S_, .f32⟩
  | 10 => ⟨S20000, .f32⟩
  | 11 => ⟨S100000x1, .i32⟩
  | 12 => ⟨S20000, .f32⟩
  | 13 => ⟨S_, .f32⟩
  | 14 => ⟨S20000, .f32⟩
  | 15 => ⟨S20000, .f32⟩
  | 16 => ⟨S20000x1, .f32⟩
  | 17 => ⟨S20000x128, .f32⟩
  | 18 => ⟨S20000x128, .f32⟩
  | 19 => ⟨S_, .f32⟩
  | 20 => ⟨S200000x128, .f32⟩
  | 21 => ⟨S200000x128, .f32⟩
  | 22 => ⟨S200000x128, .f32⟩
  | 23 => ⟨S_, .f32⟩
  | 24 => ⟨S100000x128, .f32⟩
  | 25 => ⟨S100000x128, .f32⟩
  | 26 => ⟨S100000x128, .f32⟩
  | 27 => ⟨S_, .f32⟩
  | 28 => ⟨S20000x128, .f32⟩
  | 29 => ⟨S20000x128, .f32⟩
  | 30 => ⟨S20000x128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S_, .f32⟩
  | 41 => ⟨S100000x128, .f32⟩
  | 42 => ⟨S600000x1, .i32⟩
  | 43 => ⟨S100000x128, .f32⟩
  | 44 => ⟨S_, .f32⟩
  | 45 => ⟨S600000, .f32⟩
  | 46 => ⟨S_, .f32⟩
  | 47 => ⟨S100000, .f32⟩
  | 48 => ⟨S600000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x128, .f32⟩
  | 55 => ⟨S100000x128, .f32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S100000x128, .f32⟩
  | 65 => ⟨S_, .f32⟩
  | 66 => ⟨S100000x128, .f32⟩
  | 67 => ⟨S100000x1, .i32⟩
  | 68 => ⟨S100000x128, .f32⟩
  | 69 => ⟨S_, .f32⟩
  | 70 => ⟨S100000, .f32⟩
  | 71 => ⟨S_, .f32⟩
  | 72 => ⟨S100000, .f32⟩
  | 73 => ⟨S100000x1, .i32⟩
  | 74 => ⟨S100000, .f32⟩
  | 75 => ⟨S_, .f32⟩
  | 76 => ⟨S100000, .f32⟩
  | 77 => ⟨S100000, .f32⟩
  | 78 => ⟨S100000x1, .f32⟩
  | 79 => ⟨S100000x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x128, .f32⟩
  | 94 => ⟨S_, .f32⟩
  | 95 => ⟨S200000x128, .f32⟩
  | 96 => ⟨S600000x1, .i32⟩
  | 97 => ⟨S200000x128, .f32⟩
  | 98 => ⟨S_, .f32⟩
  | 99 => ⟨S600000, .f32⟩
  | 100 => ⟨S_, .f32⟩
  | 101 => ⟨S200000, .f32⟩
  | 102 => ⟨S600000x1, .i32⟩
  | 103 => ⟨S200000, .f32⟩
  | 104 => ⟨S_, .f32⟩
  | 105 => ⟨S200000, .f32⟩
  | 106 => ⟨S200000, .f32⟩
  | 107 => ⟨S200000x1, .f32⟩
  | 108 => ⟨S200000x128, .f32⟩
  | 109 => ⟨S200000x128, .f32⟩
  | 110 => ⟨S_, .i32⟩
  | 111 => ⟨S100000, .i32⟩
  | 112 => ⟨S100000, .i1⟩
  | 113 => ⟨S_, .i32⟩
  | 114 => ⟨S100000, .i32⟩
  | 115 => ⟨S100000, .i32⟩
  | 116 => ⟨S100000, .i32⟩
  | 117 => ⟨S100000x1, .i32⟩
  | 118 => ⟨S100000x128, .f32⟩
  | 119 => ⟨S_, .f32⟩
  | 120 => ⟨S20000x128, .f32⟩
  | 121 => ⟨S100000x1, .i32⟩
  | 122 => ⟨S20000x128, .f32⟩
  | 123 => ⟨S_, .f32⟩
  | 124 => ⟨S100000, .f32⟩
  | 125 => ⟨S_, .f32⟩
  | 126 => ⟨S20000, .f32⟩
  | 127 => ⟨S100000x1, .i32⟩
  | _ => ⟨S200000x128, .f32⟩

abbrev hbmTy0_2 (i : Nat) : BufTy := match i % 128 with
  | 0 => ⟨S20000, .f32⟩
  | 1 => ⟨S_, .f32⟩
  | 2 => ⟨S20000, .f32⟩
  | 3 => ⟨S20000, .f32⟩
  | 4 => ⟨S20000x1, .f32⟩
  | 5 => ⟨S20000x128, .f32⟩
  | 6 => ⟨S20000x128, .f32⟩
  | 7 => ⟨S_, .f32⟩
  | 8 => ⟨S200000x128, .f32⟩
  | 9 => ⟨S200000x128, .f32⟩
  | 10 => ⟨S200000x128, .f32⟩
  | 11 => ⟨S_, .f32⟩
  | 12 => ⟨S100000x128, .f32⟩
  | 13 => ⟨S100000x128, .f32⟩
  | 14 => ⟨S100000x128, .f32⟩
  | 15 => ⟨S_, .f32⟩
  | 16 => ⟨S20000x128, .f32⟩
  | 17 => ⟨S20000x128, .f32⟩
  | 18 => ⟨S20000x128, .f32⟩
  | 19 => ⟨S128x16, .f32⟩
  | 20 => ⟨S100000x16, .f32⟩
  | 21 => ⟨S1x16, .f32⟩
  | 22 => ⟨S100000x16, .f32⟩
  | 23 => ⟨S100000x16, .f32⟩
  | _ => ⟨S200000x128, .f32⟩

abbrev hbmTy (i : Nat) : BufTy := match i / 128 with
  | 0 => hbmTy0_0 i
  | 1 => hbmTy0_1 i
  | 2 => hbmTy0_2 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call0_cst : Ref sig .tc := ⟨.hbm, 24, rfl⟩
abbrev main_call0_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call1_cst : Ref sig .tc := ⟨.hbm, 32, rfl⟩
abbrev main_call1_v0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_call2_cst : Ref sig .tc := ⟨.hbm, 40, rfl⟩
abbrev main_call2_v0 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_v19 : Ref sig .tc := ⟨.hbm, 45, rfl⟩
abbrev main_c_0 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_1 : Ref sig .tc := ⟨.hbm, 56, rfl⟩
abbrev main_v28 : Ref sig .tc := ⟨.hbm, 57, rfl⟩
abbrev main_cst_2 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_3 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_4 : Ref sig .tc := ⟨.hbm, 68, rfl⟩
abbrev main_v37 : Ref sig .tc := ⟨.hbm, 69, rfl⟩
abbrev main_v38 : Ref sig .tc := ⟨.hbm, 70, rfl⟩
abbrev main_c_5 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_6 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_7 : Ref sig .tc := ⟨.hbm, 81, rfl⟩
abbrev main_v47 : Ref sig .tc := ⟨.hbm, 82, rfl⟩
abbrev main_cst_8 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_9 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_10 : Ref sig .tc := ⟨.hbm, 94, rfl⟩
abbrev main_v57 : Ref sig .tc := ⟨.hbm, 95, rfl⟩
abbrev main_v58 : Ref sig .tc := ⟨.hbm, 96, rfl⟩
abbrev main_c_11 : Ref sig .tc := ⟨.hbm, 97, rfl⟩
abbrev main_v59 : Ref sig .tc := ⟨.hbm, 98, rfl⟩
abbrev main_v60 : Ref sig .tc := ⟨.hbm, 99, rfl⟩
abbrev main_c_12 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_13 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_14 : Ref sig .tc := ⟨.hbm, 110, rfl⟩
abbrev main_v69 : Ref sig .tc := ⟨.hbm, 111, rfl⟩
abbrev main_cst_15 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_16 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_c_17 : Ref sig .tc := ⟨.hbm, 122, rfl⟩
abbrev main_v78 : Ref sig .tc := ⟨.hbm, 123, rfl⟩
abbrev main_v79 : Ref sig .tc := ⟨.hbm, 124, rfl⟩
abbrev main_c_18 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_19 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_20 : Ref sig .tc := ⟨.hbm, 135, rfl⟩
abbrev main_v88 : Ref sig .tc := ⟨.hbm, 136, rfl⟩
abbrev main_cst_21 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_22 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_23 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_24 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_25 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_c_26 : Ref sig .tc := ⟨.hbm, 159, rfl⟩
abbrev main_v106 : Ref sig .tc := ⟨.hbm, 160, rfl⟩
abbrev main_v107 : Ref sig .tc := ⟨.hbm, 161, rfl⟩
abbrev main_c_27 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_28 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_cst_29 : Ref sig .tc := ⟨.hbm, 172, rfl⟩
abbrev main_v116 : Ref sig .tc := ⟨.hbm, 173, rfl⟩
abbrev main_cst_30 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_cst_31 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_c_32 : Ref sig .tc := ⟨.hbm, 184, rfl⟩
abbrev main_v125 : Ref sig .tc := ⟨.hbm, 185, rfl⟩
abbrev main_v126 : Ref sig .tc := ⟨.hbm, 186, rfl⟩
abbrev main_c_33 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_cst_34 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_cst_35 : Ref sig .tc := ⟨.hbm, 197, rfl⟩
abbrev main_v135 : Ref sig .tc := ⟨.hbm, 198, rfl⟩
abbrev main_cst_36 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_cst_37 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_cst_38 : Ref sig .tc := ⟨.hbm, 210, rfl⟩
abbrev main_v145 : Ref sig .tc := ⟨.hbm, 211, rfl⟩
abbrev main_v146 : Ref sig .tc := ⟨.hbm, 212, rfl⟩
abbrev main_c_39 : Ref sig .tc := ⟨.hbm, 213, rfl⟩
abbrev main_v147 : Ref sig .tc := ⟨.hbm, 214, rfl⟩
abbrev main_v148 : Ref sig .tc := ⟨.hbm, 215, rfl⟩
abbrev main_c_40 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_cst_41 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_cst_42 : Ref sig .tc := ⟨.hbm, 226, rfl⟩
abbrev main_v157 : Ref sig .tc := ⟨.hbm, 227, rfl⟩
abbrev main_cst_43 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_cst_44 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_c_45 : Ref sig .tc := ⟨.hbm, 238, rfl⟩
abbrev main_v166 : Ref sig .tc := ⟨.hbm, 239, rfl⟩
abbrev main_v167 : Ref sig .tc := ⟨.hbm, 240, rfl⟩
abbrev main_c_46 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_cst_47 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_cst_48 : Ref sig .tc := ⟨.hbm, 251, rfl⟩
abbrev main_v176 : Ref sig .tc := ⟨.hbm, 252, rfl⟩
abbrev main_cst_49 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_cst_50 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_cst_51 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_cst_52 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_cst_53 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  transposes_S16x128_S128x16_1_0 : S16x128.Transposes [1, 0] S128x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S200000x128_S128x128_S200000x128_1_0_0_1_n_n_wf : DotDims.WF S200000x128 S128x128 S200000x128 [1] [0] [0] [1] [] []
  dot_S100000x128_S128x128_S100000x128_1_0_0_1_n_n_wf : DotDims.WF S100000x128 S128x128 S100000x128 [1] [0] [0] [1] [] []
  dot_S20000x128_S128x128_S20000x128_1_0_0_1_n_n_wf : DotDims.WF S20000x128 S128x128 S20000x128 [1] [0] [0] [1] [] []
  gather_S200000x128_S600000x1_S600000x128_1_0_n_n_0_1_1128_wf : GatherDims.WF S200000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  gather_S20000x128_S100000x1_S100000x128_1_0_n_n_0_1_1128_wf : GatherDims.WF S20000x128 S100000x1 S100000x128 [1] [0] [] [0] [] 1 ![1, 128]
  scatter_S100000x128_S100000x1_S100000x128_1_0_0_1_wf : ScatterDims.WF S100000x128 S100000x1 S100000x128 [1] [0] [0] 1
  scatter_S100000_S100000x1_S100000_n_0_0_1_wf : ScatterDims.WF S100000 S100000x1 S100000 [] [0] [0] 1
  gather_S100000x128_S600000x1_S600000x128_1_0_n_n_0_1_1128_wf : GatherDims.WF S100000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  gather_S100000x128_S100000x1_S100000x128_1_0_n_n_0_1_1128_wf : GatherDims.WF S100000x128 S100000x1 S100000x128 [1] [0] [] [0] [] 1 ![1, 128]
  scatter_S20000x128_S100000x1_S100000x128_1_0_0_1_wf : ScatterDims.WF S20000x128 S100000x1 S100000x128 [1] [0] [0] 1
  scatter_S20000_S100000x1_S100000_n_0_0_1_wf : ScatterDims.WF S20000 S100000x1 S100000 [] [0] [0] 1
  dot_S100000x128_S128x16_S100000x16_1_0_0_1_n_n_wf : DotDims.WF S100000x128 S128x16 S100000x16 [1] [0] [0] [1] [] []

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S20000x128_S100000x1_S100000x128_1_0_n_n_0_1_1128 : GatherDims S20000x128 S100000x1 S100000x128 where
  offsetDims := [1]
  collapsedSliceDims := [0]
  operandBatchingDims := []
  startIndicesBatchingDims := []
  startIndexMap := [0]
  indexVectorDim := 1
  sliceSizes := ![1, 128]
  wf := gather_S20000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S20000x128_S100000x1_S100000x128_1_0_0_1 : ScatterDims S20000x128 S100000x1 S100000x128 where
  updateWindowDims := [1]
  insertedWindowDims := [0]
  scatterDimsToOperandDims := [0]
  indexVectorDim := 1
  wf := scatter_S20000x128_S100000x1_S100000x128_1_0_0_1_wf
def scatter_S20000_S100000x1_S100000_n_0_0_1 : ScatterDims S20000 S100000x1 S100000 where
  updateWindowDims := []
  insertedWindowDims := [0]
  scatterDimsToOperandDims := [0]
  indexVectorDim := 1
  wf := scatter_S20000_S100000x1_S100000_n_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.WholeRun.lean ====
/-
  The run of the whole program with its result named.  The program is ten pallas_calls among two stretches of host
  operations; its buffers' contents at each boundary are a fold from the launch memory (the boundary contents
  W0 … W12 of the frame certificate).  Every weakly fair execution terminates, nothing faulting, with the result
  buffer holding what the last boundary's contents W12 hold there, and the argument arrays as launched.
-/
import proofs.«117898_j80599356276853_1_alg».proof.Proof.Gen.KernelIdeal.Frame

set_option maxRecDepth 16384

noncomputable section

namespace Cert.KernelIdeal.WholeRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution ends with the result buffer at the last boundary's contents and the arguments as
    launched: the segments' launch theorem, the last thread state read against the final state. -/
theorem run_result : θ_run defs (onTc (τ := τ) (main (F := F))) ⟨m, fun _ => 0, ρ⟩ (fun r => ∀ c : Dev nD,
      r.2.mem ((c.tc : Thread nD τ).loc main_v167) = W12 m ρ c (Proc.devRef .tc main_v167)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v167 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c)⟩)

end Cert.KernelIdeal.WholeRun

end
-- ==== Proof.Aggregate.lean ====
/-
  The two stretches of host operations between the pallas_calls.  Each computes, for every node type, the mean over
  incoming edges of the source nodes' embeddings (a row gather by the edge's source, a sum scattered by the edge's
  destination, divided by the in-degree clamped below at one), and for the movie nodes half the sum of the two such
  means.  The reference applies the very same host operations to its own embeddings.  So once the embeddings going in
  agree, what comes out agrees: the chain of host operations is carried as one function of its operands and never
  opened (no gather or scatter is read at an index).
-/
import proofs.«117898_j80599356276853_1_alg».proof.Proof.Gen.KernelIdeal.Launch
import proofs.«117898_j80599356276853_1_alg».proof.Proof.Gen.ReferenceIdeal.Read
import Idealize.ShloMosaic.Lib.StableHlo.Run

set_option maxRecDepth 16384

noncomputable section

namespace Cert.KernelIdeal.Aggregate

open Cert.KernelIdeal Cert.KernelIdeal.Gen Idealize.ShloMosaic Idealize.ShloMosaic.TcCoe Idealize.ShloMosaic.StableHlo
open Cert.ReferenceIdeal.Read

variable (W : Valuation τ sig (Elt Ideal))

set_option maxHeartbeats 8000000 in
/-- First layer, movie nodes: half the sum of the mean user message (along "rates") and the mean director message. -/
theorem movie1 (x0 : (⟨S200000x128, .f32⟩ : BufTy).Contents (Elt Ideal)) (x2 : (⟨S20000x128, .f32⟩ : BufTy).Contents (Elt Ideal)) (x3 : (⟨S128x128, .f32⟩ : BufTy).Contents (Elt Ideal)) (x4 : (⟨S128, .f32⟩ : BufTy).Contents (Elt Ideal))
    (x7 : (⟨S128x128, .f32⟩ : BufTy).Contents (Elt Ideal)) (x8 : (⟨S128, .f32⟩ : BufTy).Contents (Elt Ideal)) (x11 x12 : (⟨S600000, .i32⟩ : BufTy).Contents (Elt Ideal)) (x15 x16 : (⟨S100000, .i32⟩ : BufTy).Contents (Elt Ideal))
    (hu : W (Proc.devRef .tc main_v0) = val_main_v5 (F := Ideal) x0 x3 x4)
    (hd : W (Proc.devRef .tc main_v2) = val_main_v17 (F := Ideal) x2 x7 x8)
    (h11 : W (Proc.devRef .tc main_arg11) = x11) (h12 : W (Proc.devRef .tc main_arg12) = x12)
    (h15 : W (Proc.devRef .tc main_arg15) = x15) (h16 : W (Proc.devRef .tc main_arg16) = x16) :
    after hostOps3 W (Proc.devRef .tc main_v43) = val_main_v58 (F := Ideal) x0 x2 x3 x4 x7 x8 x11 x12 x15 x16 := by
  after_results_simp
  rw [hu, hd, h11, h12, h15, h16]
  rfl

set_option maxHeartbeats 8000000 in
/-- First layer, user nodes: the mean movie message along "rated by". -/
theorem user1 (x1 : (⟨S100000x128, .f32⟩ : BufTy).Contents (Elt Ideal)) (x5 : (⟨S128x128, .f32⟩ : BufTy).Contents (Elt Ideal)) (x6 : (⟨S128, .f32⟩ : BufTy).Contents (Elt Ideal)) (x13 x14 : (⟨S600000, .i32⟩ : BufTy).Contents (Elt Ideal))
    (hm : W (Proc.devRef .tc main_v1) = val_main_v11 (F := Ideal) x1 x5 x6)
    (h13 : W (Proc.devRef .tc main_arg13) = x13) (h14 : W (Proc.devRef .tc main_arg14) = x14) :
    after hostOps3 W (Proc.devRef .tc main_v62) = val_main_v77 (F := Ideal) x1 x5 x6 x13 x14 := by
  after_results_simp
  rw [hm, h13, h14]
  rfl

set_option maxHeartbeats 8000000 in
/-- First layer, director nodes: the mean movie message along "directed by". -/
theorem director1 (x1 : (⟨S100000x128, .f32⟩ : BufTy).Contents (Elt Ideal)) (x5 : (⟨S128x128, .f32⟩ : BufTy).Contents (Elt Ideal)) (x6 : (⟨S128, .f32⟩ : BufTy).Contents (Elt Ideal)) (x17 x18 : (⟨S100000, .i32⟩ : BufTy).Contents (Elt Ideal))
    (hm : W (Proc.devRef .tc main_v1) = val_main_v11 (F := Ideal) x1 x5 x6)
    (h17 : W (Proc.devRef .tc main_arg17) = x17) (h18 : W (Proc.devRef .tc main_arg18) = x18) :
    after hostOps3 W (Proc.devRef .tc main_v81) = val_main_v96 (F := Ideal) x1 x5 x6 x17 x18 := by
  after_results_simp
  rw [hm, h17, h18]
  rfl

set_option maxHeartbeats 8000000 in
/-- The first stretch writes none of the embeddings nor an argument: they pass through. -/
theorem through1 (b : Ref sig .tc) (hb : b = main_v0 ∨ b = main_v1 ∨ b = main_v2 ∨ b = main_arg11 ∨ b = main_arg12 ∨ b = main_arg15 ∨ b = main_arg16) :
    after hostOps3 W (Proc.devRef .tc b) = W (Proc.devRef .tc b) := by
  rcases hb with rfl | rfl | rfl | rfl | rfl | rfl | rfl <;> after_results_simp

set_option maxHeartbeats 8000000 in
/-- Second layer, movie nodes: half the sum of the mean user message and the mean director message, of the
    first-layer combines. -/
theorem movie2 (x0 : (⟨S200000x128, .f32⟩ : BufTy).Contents (Elt Ideal)) (x1 : (⟨S100000x128, .f32⟩ : BufTy).Contents (Elt Ideal)) (x2 : (⟨S20000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x11 : (⟨S600000, .i32⟩ : BufTy).Contents (Elt Ideal)) (x12 : (⟨S600000, .i32⟩ : BufTy).Contents (Elt Ideal)) (x13 : (⟨S600000, .i32⟩ : BufTy).Contents (Elt Ideal)) (x14 : (⟨S600000, .i32⟩ : BufTy).Contents (Elt Ideal)) (x15 : (⟨S100000, .i32⟩ : BufTy).Contents (Elt Ideal)) (x16 : (⟨S100000, .i32⟩ : BufTy).Contents (Elt Ideal)) (x17 : (⟨S100000, .i32⟩ : BufTy).Contents (Elt Ideal)) (x18 : (⟨S100000, .i32⟩ : BufTy).Contents (Elt Ideal))
    (hu : W (Proc.devRef .tc main_v82) = val_main_v99 (F := Ideal) x0 x1 x3 x4 x5 x6 x13 x14)
    (hd : W (Proc.devRef .tc main_v84) = val_main_v105 (F := Ideal) x1 x2 x5 x6 x7 x8 x17 x18)
    (h11 : W (Proc.devRef .tc main_arg11) = x11) (h12 : W (Proc.devRef .tc main_arg12) = x12)
    (h15 : W (Proc.devRef .tc main_arg15) = x15) (h16 : W (Proc.devRef .tc main_arg16) = x16) :
    after hostOps6 W (Proc.devRef .tc main_v125) = val_main_v146 (F := Ideal) x0 x1 x2 x3 x4 x5 x6 x7 x8 x11 x12 x13 x14 x15 x16 x17 x18 := by
  after_results_simp
  rw [hu, hd, h11, h12, h15, h16]
  rfl

set_option maxHeartbeats 8000000 in
/-- The second stretch does not write the movies' first-layer combine: it passes through. -/
theorem through2 (b : Ref sig .tc) (hb : b = main_v83) :
    after hostOps6 W (Proc.devRef .tc b) = W (Proc.devRef .tc b) := by
  subst hb; after_results_simp

end Cert.KernelIdeal.Aggregate

end
-- ==== Proof.TileProduct.lean ====
/-
  One row tile of a dense layer.  The body of each of the three input-embedding calls computes, on a tile of 10000
  rows, the matrix product of the tile of x with the transpose of the 128 × 128 weight (a product contracting the
  second axis of both operands, accumulated into zero; the two narrowings to half precision are the identity on
  extended reals), adds the bias along rows, and clamps below at zero.  So entry (p, q) of the tile is
      max (Σ_k x[p, k] · W[q, k] + b[q]) 0.
  The output layer's body is the same without the clamp, with a 16 × 128 weight.
-/
import proofs.«117898_j80599356276853_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.TileProduct

open Cert.KernelIdeal Cert.KernelIdeal.Gen Idealize.ShloMosaic Idealize.ShloMosaic.ValueIdx

/-- The product's left operand index at output (p, q) and contraction coordinate k is (p, k). -/
theorem left_index (j : S10000x128.Idx) (κ : dot_S10000x128_S128x128_S10000x128_1_1_0_0_n_n.contr.Idx) (k : Fin 128)
    (hk : (κ ⟨0, by decide⟩).val = k.val) :
    dot_S10000x128_S128x128_S10000x128_1_1_0_0_n_n.lhsIdx j κ = (fun a => match a with
      | ⟨0, _⟩ => ⟨(j 0).val, (j 0).isLt⟩
      | ⟨1, _⟩ => ⟨k.val, k.isLt⟩ : S10000x128.Idx) := funext fun a => Fin.ext (by
    match a with
    | ⟨0, _⟩ =>
      show (dot_S10000x128_S128x128_S10000x128_1_1_0_0_n_n.lhsIdx j κ 0).val = (j 0).val
      unfold DotDims.lhsIdx
      rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
      rfl
    | ⟨1, _⟩ => exact (dot_S10000x128_S128x128_S10000x128_1_1_0_0_n_n.lhsIdx_val_of_single rfl j κ).trans hk)

/-- The product's right operand index at output (p, q) and contraction coordinate k is (q, k): the weight is read transposed. -/
theorem right_index (j : S10000x128.Idx) (κ : dot_S10000x128_S128x128_S10000x128_1_1_0_0_n_n.contr.Idx) (k : Fin 128)
    (hk : (κ ⟨0, by decide⟩).val = k.val) :
    dot_S10000x128_S128x128_S10000x128_1_1_0_0_n_n.rhsIdx j κ = (fun a => match a with
      | ⟨0, _⟩ => ⟨(j 1).val, (j 1).isLt⟩
      | ⟨1, _⟩ => ⟨k.val, k.isLt⟩ : S128x128.Idx) := funext fun a => Fin.ext (by
    match a with
    | ⟨0, _⟩ =>
      show (dot_S10000x128_S128x128_S10000x128_1_1_0_0_n_n.rhsIdx j κ 0).val = (j 1).val
      unfold DotDims.rhsIdx
      rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
      rfl
    | ⟨1, _⟩ => exact (dot_S10000x128_S128x128_S10000x128_1_1_0_0_n_n.rhsIdx_val_of_single rfl j κ).trans hk)

/-- The tile's matrix product at an entry is the sum over the 128 contraction coordinates. -/
theorem product_entry (x : FVec Ideal S10000x128 .bf16) (W : FVec Ideal S128x128 .bf16) (j : S10000x128.Idx) :
    matmul dot_S10000x128_S128x128_S10000x128_1_1_0_0_n_n none x W (constant S10000x128 .f32 0x00000000#32) j
      = ∑ k : Fin 128, x (fun a => match a with | ⟨0, _⟩ => ⟨(j 0).val, (j 0).isLt⟩ | ⟨1, _⟩ => ⟨k.val, k.isLt⟩)
          * W (fun a => match a with | ⟨0, _⟩ => ⟨(j 1).val, (j 1).isLt⟩ | ⟨1, _⟩ => ⟨k.val, k.isLt⟩) := by
  show FloatOps.matmul _ _ _ _ _ j = _
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  rw [left_index j _ k hk, right_index j _ k hk]

/-- The bias, reshaped to one row and repeated along the rows, read at (p, q) is b[q]. -/
theorem bias_entry (b : Vec Ideal S128 .f32) (j : S10000x128.Idx) :
    broadcastTo S10000x128 (shapeCast S1x128 b shapeCasts_S128_S1x128) broadcasts_S1x128_S10000x128 j
      = b (fun a => match a with | ⟨0, _⟩ => ⟨(j 1).val, (j 1).isLt⟩) := by
  rw [broadcastTo_apply _ broadcasts_S1x128_S10000x128 j (fun a => match a with
      | ⟨0, _⟩ => ⟨0, Nat.one_pos⟩
      | ⟨1, _⟩ => ⟨(j 1).val, (j 1).isLt⟩) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]
  rw [shapeCast_addUnit_apply]
  exact congrArg b (funext fun a => match a with | ⟨0, _⟩ => rfl)

/-- Entry (p, q) of a tile of an input-embedding layer: max (Σ_k x[p, k] · W[q, k] + b[q]) 0. -/
theorem dense_tile (x : Vec Ideal S10000x128 .f32) (W : Vec Ideal S128x128 .f32) (b : Vec Ideal S128 .f32) (j : S10000x128.Idx) :
    k0_pay1 (F := Ideal) x W b j
      = max ((∑ k : Fin 128, x (fun a => match a with | ⟨0, _⟩ => ⟨(j 0).val, (j 0).isLt⟩ | ⟨1, _⟩ => ⟨k.val, k.isLt⟩)
          * W (fun a => match a with | ⟨0, _⟩ => ⟨(j 1).val, (j 1).isLt⟩ | ⟨1, _⟩ => ⟨k.val, k.isLt⟩))
        + b (fun a => match a with | ⟨0, _⟩ => ⟨(j 1).val, (j 1).isLt⟩)) (Ideal.ofBits .f32 0x00000000#32) := by
  unfold k0_pay1
  rw [maximumf_apply, addf_apply, product_entry, bias_entry]
  rfl

/-- The three embedding calls have the same body. -/
theorem dense_tile1 : @k1_pay1 Ideal _ = @k0_pay1 Ideal _ := rfl
theorem dense_tile2 : @k2_pay1 Ideal _ = @k0_pay1 Ideal _ := rfl

end Cert.KernelIdeal.TileProduct

end
-- ==== Proof.UserEmbed.lean ====
/-
  The input embedding of the user nodes: one pallas_call over 20 row tiles of 10000 rows of x.  Each tile's body
  writes max (Σ_k x[p, k] · W[q, k] + b[q]) 0 at entry (p, q) (W the 128 × 128 weight, read whole at every point, b the
  bias).  Tile t reads rows 10000·t … of x and writes the same rows of the output, and the 20 tiles partition the
  200000 rows, so after the call the output array is  i ↦ max (Σ_k x[i₀, k] · W[i₁, k] + b[i₁]) 0  of the arrays as found.
-/
import proofs.«117898_j80599356276853_1_alg».proof.Proof.Gen.KernelIdeal.Frame
import proofs.«117898_j80599356276853_1_alg».proof.Proof.TileProduct
import Idealize.ShloMosaic.Lib.Pipeline.Value

set_option maxRecDepth 16384

noncomputable section

namespace Cert.KernelIdeal.UserEmbed

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- Row i₀ of x at column k; row i₁ of the weight at column k; entry i₁ of the bias. -/
abbrev xi (i : S200000x128.Idx) (k : Fin 128) : S200000x128.Idx := fun a => match a with
  | ⟨0, _⟩ => ⟨(i 0).val, (i 0).isLt⟩
  | ⟨1, _⟩ => ⟨k.val, k.isLt⟩
abbrev wi (i : S200000x128.Idx) (k : Fin 128) : S128x128.Idx := fun a => match a with
  | ⟨0, _⟩ => ⟨(i 1).val, (i 1).isLt⟩
  | ⟨1, _⟩ => ⟨k.val, k.isLt⟩
abbrev bi (i : S200000x128.Idx) : S128.Idx := fun a => match a with
  | ⟨0, _⟩ => ⟨(i 1).val, (i 1).isLt⟩
/-- The same three inside a tile. -/
abbrev txi (j : S10000x128.Idx) (k : Fin 128) : S10000x128.Idx := fun a => match a with
  | ⟨0, _⟩ => ⟨(j 0).val, (j 0).isLt⟩
  | ⟨1, _⟩ => ⟨k.val, k.isLt⟩
abbrev twi (j : S10000x128.Idx) (k : Fin 128) : S128x128.Idx := fun a => match a with
  | ⟨0, _⟩ => ⟨(j 1).val, (j 1).isLt⟩
  | ⟨1, _⟩ => ⟨k.val, k.isLt⟩
abbrev tbi (j : S10000x128.Idx) : S128.Idx := fun a => match a with
  | ⟨0, _⟩ => ⟨(j 1).val, (j 1).isLt⟩

/-- The array the call leaves, index by index. -/
abbrev layer (x : S200000x128.Idx → Elt Ideal .f32) (W : S128x128.Idx → Elt Ideal .f32) (b : S128.Idx → Elt Ideal .f32) : S200000x128.Idx → Elt Ideal .f32 :=
  fun i => max ((∑ k : Fin 128, x (xi i k) * W (wi i k)) + b (bi i)) (Ideal.ofBits .f32 0x00000000#32)

/-- The same expression inside a tile, of the three loaded tiles. -/
abbrev tileEntry (X : S10000x128.Idx → Elt Ideal .f32) (Wt : S128x128.Idx → Elt Ideal .f32) (B : S128.Idx → Elt Ideal .f32) (j : S10000x128.Idx) : Elt Ideal .f32 :=
  max ((∑ k : Fin 128, X (txi j k) * Wt (twi j k)) + B (tbi j)) (Ideal.ofBits .f32 0x00000000#32)

/-- Tile t of x and of the output are rows 10000·t …, all columns; the weight and the bias are read whole. -/
theorem tile_index : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) ≤ 19
    ∧ win0_3.index t (1 : Fin 2) = 0 :=
  (by decide +kernel : ∀ t : Fin grid0.N, _)

/-- Every row tile is some grid point's. -/
theorem tile_onto : ∀ (q0 : Fin 20), ∃ t : Fin cfg0.N, win0_3.index t = ![q0.val, 0] :=
  (by decide +kernel : ∀ (q0 : Fin 20), ∃ t : Fin grid0.N, win0_3.index t = ![q0.val, 0])

set_option maxHeartbeats 2000000 in
/-- What grid point t writes back is tile t of the layer of the input arrays as the call finds them. -/
theorem written (c : Dev nD) (t : Fin cfg0.N) :
    (dat0 V c).flushed 3 t = ((cfg0.win 3).blk t).view.read (Elt Ideal) (layer (V c main_arg0) (V c main_arg3) (V c main_arg4)) := by
  show (cfg0.win 3).cut (grid0.coords t) ((dat0 V c).after 3 t) = _
  rw [after0_3]
  unfold out0_3
  rw [View.canon_unit_zero origin2]
  simp only [View.ld_unit_zero (S := S10000x128) origin2, View.ld_unit_zero (S := S128x128) origin2, View.ld_unit_zero (S := S128) origin1]
  obtain ⟨e0, e1, e2, e3, e4, e5, e6⟩ := tile_index t
  funext j
  show k0_pay1 (F := Ideal) (iblk0 V c 0 t) (iblk0 V c 1 t) (iblk0 V c 2 t) j = _
  rw [TileProduct.dense_tile]
  have hx : ∀ k : Fin 128, iblk0 V c 0 t (txi j k) = V c main_arg0 (xi (((cfg0.win 3).blk t).view.emb j) k) := fun k => by
    show V c main_arg0 (((cfg0.win 0).blk t).view.emb (txi j k)) = _
    refine congrArg (V c main_arg0) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  have hw : ∀ k : Fin 128, iblk0 V c 1 t (twi j k) = V c main_arg3 (wi (((cfg0.win 3).blk t).view.emb j) k) := fun k => by
    show V c main_arg3 (((cfg0.win 1).blk t).view.emb (twi j k)) = _
    refine congrArg (V c main_arg3) (funext fun a => Fin.ext ?_)
    match a with
    | ⟨0, _⟩ => show win0_1.index t (0 : Fin 2) * 128 + 1 * (j 1).val = win0_3.index t (1 : Fin 2) * 128 + 1 * (j 1).val; omega
    | ⟨1, _⟩ => show win0_1.index t (1 : Fin 2) * 128 + 1 * k.val = k.val; omega
  have hb : iblk0 V c 2 t (tbi j) = V c main_arg4 (bi (((cfg0.win 3).blk t).view.emb j)) := by
    show V c main_arg4 (((cfg0.win 2).blk t).view.emb (tbi j)) = _
    refine congrArg (V c main_arg4) (funext fun a => Fin.ext ?_)
    match a with
    | ⟨0, _⟩ => show win0_2.index t (0 : Fin 1) * 128 + 1 * (j 1).val = win0_3.index t (1 : Fin 2) * 128 + 1 * (j 1).val; omega
  show tileEntry (iblk0 V c 0 t) (iblk0 V c 1 t) (iblk0 V c 2 t) j = _
  simp only [tileEntry, hx, hw, hb]
  rfl

/-- An index lies in tile t iff each coordinate lies in the tile's range on its axis. -/
theorem in_tile (t : Fin cfg0.N) (i : S200000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v0).slice (win0_3.rect t)).set ↔ _
  rw [View.set_slice_whole, Rect.mem_set_unit]
  exact Iff.rfl

/-- The tiles cover the array: row r lies in tile r / 10000. -/
theorem tiles_cover (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  obtain ⟨t, ht⟩ := tile_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [in_tile]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- After the call the output array is the layer of the input arrays as the call found them. -/
theorem result (c : Dev nD) : (dat0 V c).arrAt 3 cfg0.N = layer (V c main_arg0) (V c main_arg3) (V c main_arg4) :=
  (dat0 V c).arrAt_eq_of_cover 3 (layer (V c main_arg0) (V c main_arg3) (V c main_arg4)) (fun t _ => written V c t) tiles_cover

end Cert.KernelIdeal.UserEmbed

end
-- ==== Proof.MovieEmbed.lean ====
/-
  The input embedding of the movie nodes: one pallas_call over 10 row tiles of 10000 rows of x.  Each tile's body
  writes max (Σ_k x[p, k] · W[q, k] + b[q]) 0 at entry (p, q) (W the 128 × 128 weight, read whole at every point, b the
  bias).  Tile t reads rows 10000·t … of x and writes the same rows of the output, and the 10 tiles partition the
  100000 rows, so after the call the output array is  i ↦ max (Σ_k x[i₀, k] · W[i₁, k] + b[i₁]) 0  of the arrays as found.
-/
import proofs.«117898_j80599356276853_1_alg».proof.Proof.Gen.KernelIdeal.Frame
import proofs.«117898_j80599356276853_1_alg».proof.Proof.TileProduct
import Idealize.ShloMosaic.Lib.Pipeline.Value

set_option maxRecDepth 16384

noncomputable section

namespace Cert.KernelIdeal.MovieEmbed

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- Row i₀ of x at column k; row i₁ of the weight at column k; entry i₁ of the bias. -/
abbrev xi (i : S100000x128.Idx) (k : Fin 128) : S100000x128.Idx := fun a => match a with
  | ⟨0, _⟩ => ⟨(i 0).val, (i 0).isLt⟩
  | ⟨1, _⟩ => ⟨k.val, k.isLt⟩
abbrev wi (i : S100000x128.Idx) (k : Fin 128) : S128x128.Idx := fun a => match a with
  | ⟨0, _⟩ => ⟨(i 1).val, (i 1).isLt⟩
  | ⟨1, _⟩ => ⟨k.val, k.isLt⟩
abbrev bi (i : S100000x128.Idx) : S128.Idx := fun a => match a with
  | ⟨0, _⟩ => ⟨(i 1).val, (i 1).isLt⟩
/-- The same three inside a tile. -/
abbrev txi (j : S10000x128.Idx) (k : Fin 128) : S10000x128.Idx := fun a => match a with
  | ⟨0, _⟩ => ⟨(j 0).val, (j 0).isLt⟩
  | ⟨1, _⟩ => ⟨k.val, k.isLt⟩
abbrev twi (j : S10000x128.Idx) (k : Fin 128) : S128x128.Idx := fun a => match a with
  | ⟨0, _⟩ => ⟨(j 1).val, (j 1).isLt⟩
  | ⟨1, _⟩ => ⟨k.val, k.isLt⟩
abbrev tbi (j : S10000x128.Idx) : S128.Idx := fun a => match a with
  | ⟨0, _⟩ => ⟨(j 1).val, (j 1).isLt⟩

/-- The array the call leaves, index by index. -/
abbrev layer (x : S100000x128.Idx → Elt Ideal .f32) (W : S128x128.Idx → Elt Ideal .f32) (b : S128.Idx → Elt Ideal .f32) : S100000x128.Idx → Elt Ideal .f32 :=
  fun i => max ((∑ k : Fin 128, x (xi i k) * W (wi i k)) + b (bi i)) (Ideal.ofBits .f32 0x00000000#32)

/-- The same expression inside a tile, of the three loaded tiles. -/
abbrev tileEntry (X : S10000x128.Idx → Elt Ideal .f32) (Wt : S128x128.Idx → Elt Ideal .f32) (B : S128.Idx → Elt Ideal .f32) (j : S10000x128.Idx) : Elt Ideal .f32 :=
  max ((∑ k : Fin 128, X (txi j k) * Wt (twi j k)) + B (tbi j)) (Ideal.ofBits .f32 0x00000000#32)

/-- Tile t of x and of the output are rows 10000·t …, all columns; the weight and the bias are read whole. -/
theorem tile_index : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) ≤ 9
    ∧ win1_3.index t (1 : Fin 2) = 0 :=
  (by decide +kernel : ∀ t : Fin grid1.N, _)

/-- Every row tile is some grid point's. -/
theorem tile_onto : ∀ (q0 : Fin 10), ∃ t : Fin cfg1.N, win1_3.index t = ![q0.val, 0] :=
  (by decide +kernel : ∀ (q0 : Fin 10), ∃ t : Fin grid1.N, win1_3.index t = ![q0.val, 0])

set_option maxHeartbeats 2000000 in
/-- What grid point t writes back is tile t of the layer of the input arrays as the call finds them. -/
theorem written (c : Dev nD) (t : Fin cfg1.N) :
    (dat1 V c).flushed 3 t = ((cfg1.win 3).blk t).view.read (Elt Ideal) (layer (V c main_arg1) (V c main_arg5) (V c main_arg6)) := by
  show (cfg1.win 3).cut (grid1.coords t) ((dat1 V c).after 3 t) = _
  rw [after1_3]
  unfold out1_3
  rw [View.canon_unit_zero origin2]
  simp only [View.ld_unit_zero (S := S10000x128) origin2, View.ld_unit_zero (S := S128x128) origin2, View.ld_unit_zero (S := S128) origin1]
  obtain ⟨e0, e1, e2, e3, e4, e5, e6⟩ := tile_index t
  funext j
  show k0_pay1 (F := Ideal) (iblk1 V c 0 t) (iblk1 V c 1 t) (iblk1 V c 2 t) j = _
  rw [TileProduct.dense_tile]
  have hx : ∀ k : Fin 128, iblk1 V c 0 t (txi j k) = V c main_arg1 (xi (((cfg1.win 3).blk t).view.emb j) k) := fun k => by
    show V c main_arg1 (((cfg1.win 0).blk t).view.emb (txi j k)) = _
    refine congrArg (V c main_arg1) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * k.val = k.val; omega
  have hw : ∀ k : Fin 128, iblk1 V c 1 t (twi j k) = V c main_arg5 (wi (((cfg1.win 3).blk t).view.emb j) k) := fun k => by
    show V c main_arg5 (((cfg1.win 1).blk t).view.emb (twi j k)) = _
    refine congrArg (V c main_arg5) (funext fun a => Fin.ext ?_)
    match a with
    | ⟨0, _⟩ => show win1_1.index t (0 : Fin 2) * 128 + 1 * (j 1).val = win1_3.index t (1 : Fin 2) * 128 + 1 * (j 1).val; omega
    | ⟨1, _⟩ => show win1_1.index t (1 : Fin 2) * 128 + 1 * k.val = k.val; omega
  have hb : iblk1 V c 2 t (tbi j) = V c main_arg6 (bi (((cfg1.win 3).blk t).view.emb j)) := by
    show V c main_arg6 (((cfg1.win 2).blk t).view.emb (tbi j)) = _
    refine congrArg (V c main_arg6) (funext fun a => Fin.ext ?_)
    match a with
    | ⟨0, _⟩ => show win1_2.index t (0 : Fin 1) * 128 + 1 * (j 1).val = win1_3.index t (1 : Fin 2) * 128 + 1 * (j 1).val; omega
  show tileEntry (iblk1 V c 0 t) (iblk1 V c 1 t) (iblk1 V c 2 t) j = _
  simp only [tileEntry, hx, hw, hb]
  rfl

/-- An index lies in tile t iff each coordinate lies in the tile's range on its axis. -/
theorem in_tile (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v1).slice (win1_3.rect t)).set ↔ _
  rw [View.set_slice_whole, Rect.mem_set_unit]
  exact Iff.rfl

/-- The tiles cover the array: row r lies in tile r / 10000. -/
theorem tiles_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := tile_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [in_tile]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- After the call the output array is the layer of the input arrays as the call found them. -/
theorem result (c : Dev nD) : (dat1 V c).arrAt 3 cfg1.N = layer (V c main_arg1) (V c main_arg5) (V c main_arg6) :=
  (dat1 V c).arrAt_eq_of_cover 3 (layer (V c main_arg1) (V c main_arg5) (V c main_arg6)) (fun t _ => written V c t) tiles_cover

end Cert.KernelIdeal.MovieEmbed

end
-- ==== Proof.DirectorEmbed.lean ====
/-
  The input embedding of the director nodes: one pallas_call over 2 row tiles of 10000 rows of x.  Each tile's body
  writes max (Σ_k x[p, k] · W[q, k] + b[q]) 0 at entry (p, q) (W the 128 × 128 weight, read whole at every point, b the
  bias).  Tile t reads rows 10000·t … of x and writes the same rows of the output, and the 2 tiles partition the
  20000 rows, so after the call the output array is  i ↦ max (Σ_k x[i₀, k] · W[i₁, k] + b[i₁]) 0  of the arrays as found.
-/
import proofs.«117898_j80599356276853_1_alg».proof.Proof.Gen.KernelIdeal.Frame
import proofs.«117898_j80599356276853_1_alg».proof.Proof.TileProduct
import Idealize.ShloMosaic.Lib.Pipeline.Value

set_option maxRecDepth 16384

noncomputable section

namespace Cert.KernelIdeal.DirectorEmbed

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- Row i₀ of x at column k; row i₁ of the weight at column k; entry i₁ of the bias. -/
abbrev xi (i : S20000x128.Idx) (k : Fin 128) : S20000x128.Idx := fun a => match a with
  | ⟨0, _⟩ => ⟨(i 0).val, (i 0).isLt⟩
  | ⟨1, _⟩ => ⟨k.val, k.isLt⟩
abbrev wi (i : S20000x128.Idx) (k : Fin 128) : S128x128.Idx := fun a => match a with
  | ⟨0, _⟩ => ⟨(i 1).val, (i 1).isLt⟩
  | ⟨1, _⟩ => ⟨k.val, k.isLt⟩
abbrev bi (i : S20000x128.Idx) : S128.Idx := fun a => match a with
  | ⟨0, _⟩ => ⟨(i 1).val, (i 1).isLt⟩
/-- The same three inside a tile. -/
abbrev txi (j : S10000x128.Idx) (k : Fin 128) : S10000x128.Idx := fun a => match a with
  | ⟨0, _⟩ => ⟨(j 0).val, (j 0).isLt⟩
  | ⟨1, _⟩ => ⟨k.val, k.isLt⟩
abbrev twi (j : S10000x128.Idx) (k : Fin 128) : S128x128.Idx := fun a => match a with
  | ⟨0, _⟩ => ⟨(j 1).val, (j 1).isLt⟩
  | ⟨1, _⟩ => ⟨k.val, k.isLt⟩
abbrev tbi (j : S10000x128.Idx) : S128.Idx := fun a => match a with
  | ⟨0, _⟩ => ⟨(j 1).val, (j 1).isLt⟩

/-- The array the call leaves, index by index. -/
abbrev layer (x : S20000x128.Idx → Elt Ideal .f32) (W : S128x128.Idx → Elt Ideal .f32) (b : S128.Idx → Elt Ideal .f32) : S20000x128.Idx → Elt Ideal .f32 :=
  fun i => max ((∑ k : Fin 128, x (xi i k) * W (wi i k)) + b (bi i)) (Ideal.ofBits .f32 0x00000000#32)

/-- The same expression inside a tile, of the three loaded tiles. -/
abbrev tileEntry (X : S10000x128.Idx → Elt Ideal .f32) (Wt : S128x128.Idx → Elt Ideal .f32) (B : S128.Idx → Elt Ideal .f32) (j : S10000x128.Idx) : Elt Ideal .f32 :=
  max ((∑ k : Fin 128, X (txi j k) * Wt (twi j k)) + B (tbi j)) (Ideal.ofBits .f32 0x00000000#32)

/-- Tile t of x and of the output are rows 10000·t …, all columns; the weight and the bias are read whole. -/
theorem tile_index : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) ≤ 1
    ∧ win2_3.index t (1 : Fin 2) = 0 :=
  (by decide +kernel : ∀ t : Fin grid2.N, _)

/-- Every row tile is some grid point's. -/
theorem tile_onto : ∀ (q0 : Fin 2), ∃ t : Fin cfg2.N, win2_3.index t = ![q0.val, 0] :=
  (by decide +kernel : ∀ (q0 : Fin 2), ∃ t : Fin grid2.N, win2_3.index t = ![q0.val, 0])

set_option maxHeartbeats 2000000 in
/-- What grid point t writes back is tile t of the layer of the input arrays as the call finds them. -/
theorem written (c : Dev nD) (t : Fin cfg2.N) :
    (dat2 V c).flushed 3 t = ((cfg2.win 3).blk t).view.read (Elt Ideal) (layer (V c main_arg2) (V c main_arg7) (V c main_arg8)) := by
  show (cfg2.win 3).cut (grid2.coords t) ((dat2 V c).after 3 t) = _
  rw [after2_3]
  unfold out2_3
  rw [View.canon_unit_zero origin2]
  simp only [View.ld_unit_zero (S := S10000x128) origin2, View.ld_unit_zero (S := S128x128) origin2, View.ld_unit_zero (S := S128) origin1]
  obtain ⟨e0, e1, e2, e3, e4, e5, e6⟩ := tile_index t
  funext j
  show k0_pay1 (F := Ideal) (iblk2 V c 0 t) (iblk2 V c 1 t) (iblk2 V c 2 t) j = _
  rw [TileProduct.dense_tile]
  have hx : ∀ k : Fin 128, iblk2 V c 0 t (txi j k) = V c main_arg2 (xi (((cfg2.win 3).blk t).view.emb j) k) := fun k => by
    show V c main_arg2 (((cfg2.win 0).blk t).view.emb (txi j k)) = _
    refine congrArg (V c main_arg2) (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 128 + 1 * k.val = k.val; omega
  have hw : ∀ k : Fin 128, iblk2 V c 1 t (twi j k) = V c main_arg7 (wi (((cfg2.win 3).blk t).view.emb j) k) := fun k => by
    show V c main_arg7 (((cfg2.win 1).blk t).view.emb (twi j k)) = _
    refine congrArg (V c main_arg7) (funext fun a => Fin.ext ?_)
    match a with
    | ⟨0, _⟩ => show win2_1.index t (0 : Fin 2) * 128 + 1 * (j 1).val = win2_3.index t (1 : Fin 2) * 128 + 1 * (j 1).val; omega
    | ⟨1, _⟩ => show win2_1.index t (1 : Fin 2) * 128 + 1 * k.val = k.val; omega
  have hb : iblk2 V c 2 t (tbi j) = V c main_arg8 (bi (((cfg2.win 3).blk t).view.emb j)) := by
    show V c main_arg8 (((cfg2.win 2).blk t).view.emb (tbi j)) = _
    refine congrArg (V c main_arg8) (funext fun a => Fin.ext ?_)
    match a with
    | ⟨0, _⟩ => show win2_2.index t (0 : Fin 1) * 128 + 1 * (j 1).val = win2_3.index t (1 : Fin 2) * 128 + 1 * (j 1).val; omega
  show tileEntry (iblk2 V c 0 t) (iblk2 V c 1 t) (iblk2 V c 2 t) j = _
  simp only [tileEntry, hx, hw, hb]
  rfl

/-- An index lies in tile t iff each coordinate lies in the tile's range on its axis. -/
theorem in_tile (t : Fin cfg2.N) (i : S20000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v2).slice (win2_3.rect t)).set ↔ _
  rw [View.set_slice_whole, Rect.mem_set_unit]
  exact Iff.rfl

/-- The tiles cover the array: row r lies in tile r / 10000. -/
theorem tiles_cover (i : S20000x128.Idx) :
    ∃ t : Fin cfg2.N, (cfg2.win 3).flush t = true ∧ i ∈ ((cfg2.win 3).blk t).view.set := by
  have hi0 : (i 0).val < 20000 := (i 0).isLt
  have hi1 : (i 1).val < 128 := (i 1).isLt
  obtain ⟨t, ht⟩ := tile_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [in_tile]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- After the call the output array is the layer of the input arrays as the call found them. -/
theorem result (c : Dev nD) : (dat2 V c).arrAt 3 cfg2.N = layer (V c main_arg2) (V c main_arg7) (V c main_arg8) :=
  (dat2 V c).arrAt_eq_of_cover 3 (layer (V c main_arg2) (V c main_arg7) (V c main_arg8)) (fun t _ => written V c t) tiles_cover

end Cert.KernelIdeal.DirectorEmbed

end
-- ==== Proof.UserMix1.lean ====
/-
  The first-layer combine step for the user nodes: one pallas_call over 40 row tiles of 5000 rows, whose body
  writes, element by element, c · h + a, where h is the tile of the current user embedding, a the tile of the
  aggregated neighbour messages, and c the single-precision literal nearest to 1/100.  Every tile reads the two
  inputs through the same rectangle it writes, and the 40 tiles partition the 200000 rows, so after the call
  the output array is the whole-array function  i ↦ c · h i + a i  of the two input arrays as the call found them.
-/
import proofs.«117898_j80599356276853_1_alg».proof.Proof.Gen.KernelIdeal.Frame
import Idealize.ShloMosaic.Lib.Pipeline.Value

set_option maxRecDepth 16384

noncomputable section

namespace Cert.KernelIdeal.UserMix1

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The array the call leaves: c · h + a, index by index. -/
abbrev mix (h a : S200000x128.Idx → Elt F .f32) : S200000x128.Idx → Elt F .f32 :=
  fun i => FloatOps.addf (FloatOps.mulf (Scalar.ofBits .f32 0x3C23D70A#32) (h i)) (a i)

/-- The body's value on a tile is c · h + a of the two loaded tiles (the two reshapes are to the same shape). -/
theorem tile_value (x0 x1 : Vec F S5000x128 .f32) (j : S5000x128.Idx) :
    k3_pay1 x0 x1 j = FloatOps.addf (FloatOps.mulf (Scalar.ofBits .f32 0x3C23D70A#32) (x0 j)) (x1 j) := by
  unfold k3_pay1
  simp only [shapeCast_self]
  rfl

/-- All three windows move together: tile t is rows 5000·t … 5000·t + 4999, all 128 columns. -/
theorem tile_index : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 39
    ∧ win3_2.index t (1 : Fin 2) = 0 :=
  (by decide +kernel : ∀ t : Fin grid3.N, _)

/-- Every row tile is some grid point's. -/
theorem tile_onto : ∀ (q0 : Fin 40), ∃ t : Fin cfg3.N, win3_2.index t = ![q0.val, 0] :=
  (by decide +kernel : ∀ (q0 : Fin 40), ∃ t : Fin grid3.N, win3_2.index t = ![q0.val, 0])

/-- What grid point t writes back is tile t of c · h + a of the input arrays as the call finds them. -/
theorem written (c : Dev nD) (t : Fin cfg3.N) :
    (dat3 V c).flushed 2 t = ((cfg3.win 2).blk t).view.read (Elt F) (mix (V c main_v0) (V c main_v62)) := by
  show (cfg3.win 2).cut (grid3.coords t) ((dat3 V c).after 2 t) = _
  rw [after3_2]
  unfold out3_2
  rw [View.canon_unit_zero origin]
  simp only [View.ld_unit_zero (S := S5000x128) origin]
  obtain ⟨e0, e1, e2, e3, e4, e5⟩ := tile_index t
  funext j
  show k3_pay1 (iblk3 V c 0 t) (iblk3 V c 1 t) j = _
  rw [tile_value]
  show FloatOps.addf (FloatOps.mulf (Scalar.ofBits .f32 0x3C23D70A#32) (V c main_v0 (((cfg3.win 0).blk t).view.emb j))) (V c main_v62 (((cfg3.win 1).blk t).view.emb j))
    = FloatOps.addf (FloatOps.mulf (Scalar.ofBits .f32 0x3C23D70A#32) (V c main_v0 (((cfg3.win 2).blk t).view.emb j))) (V c main_v62 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 128 + 1 * (j 1).val = win3_2.index t (1 : Fin 2) * 128 + 1 * (j 1).val; omega
  rw [h0, h1]

/-- An index lies in tile t iff each coordinate lies in the tile's range on its axis. -/
theorem in_tile (t : Fin cfg3.N) (i : S200000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v82).slice (win3_2.rect t)).set ↔ _
  rw [View.set_slice_whole, Rect.mem_set_unit]
  exact Iff.rfl

/-- The tiles cover the array: row r lies in tile r / 5000. -/
theorem tiles_cover (i : S200000x128.Idx) :
    ∃ t : Fin cfg3.N, (cfg3.win 2).flush t = true ∧ i ∈ ((cfg3.win 2).blk t).view.set := by
  have hi0 : (i 0).val < 200000 := (i 0).isLt
  have hi1 : (i 1).val < 128 := (i 1).isLt
  obtain ⟨t, ht⟩ := tile_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [in_tile]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the call the output array is c · h + a of the two input arrays as the call found them. -/
theorem result (c : Dev nD) : (dat3 V c).arrAt 2 cfg3.N = mix (V c main_v0) (V c main_v62) :=
  (dat3 V c).arrAt_eq_of_cover 2 (mix (V c main_v0) (V c main_v62)) (fun t _ => written V c t) tiles_cover

end Cert.KernelIdeal.UserMix1

end
-- ==== Proof.MovieMix1.lean ====
/-
  The first-layer combine step for the movie nodes: one pallas_call over 20 row tiles of 5000 rows, whose body
  writes, element by element, c · h + a, where h is the tile of the current movie embedding, a the tile of the
  aggregated neighbour messages, and c the single-precision literal nearest to 1/100.  Every tile reads the two
  inputs through the same rectangle it writes, and the 20 tiles partition the 100000 rows, so after the call
  the output array is the whole-array function  i ↦ c · h i + a i  of the two input arrays as the call found them.
-/
import proofs.«117898_j80599356276853_1_alg».proof.Proof.Gen.KernelIdeal.Frame
import Idealize.ShloMosaic.Lib.Pipeline.Value

set_option maxRecDepth 16384

noncomputable section

namespace Cert.KernelIdeal.MovieMix1

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The array the call leaves: c · h + a, index by index. -/
abbrev mix (h a : S100000x128.Idx → Elt F .f32) : S100000x128.Idx → Elt F .f32 :=
  fun i => FloatOps.addf (FloatOps.mulf (Scalar.ofBits .f32 0x3C23D70A#32) (h i)) (a i)

/-- The body's value on a tile is c · h + a of the two loaded tiles (the two reshapes are to the same shape). -/
theorem tile_value (x0 x1 : Vec F S5000x128 .f32) (j : S5000x128.Idx) :
    k4_pay1 x0 x1 j = FloatOps.addf (FloatOps.mulf (Scalar.ofBits .f32 0x3C23D70A#32) (x0 j)) (x1 j) := by
  unfold k4_pay1
  simp only [shapeCast_self]
  rfl

/-- All three windows move together: tile t is rows 5000·t … 5000·t + 4999, all 128 columns. -/
theorem tile_index : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) ≤ 19
    ∧ win4_2.index t (1 : Fin 2) = 0 :=
  (by decide +kernel : ∀ t : Fin grid4.N, _)

/-- Every row tile is some grid point's. -/
theorem tile_onto : ∀ (q0 : Fin 20), ∃ t : Fin cfg4.N, win4_2.index t = ![q0.val, 0] :=
  (by decide +kernel : ∀ (q0 : Fin 20), ∃ t : Fin grid4.N, win4_2.index t = ![q0.val, 0])

/-- What grid point t writes back is tile t of c · h + a of the input arrays as the call finds them. -/
theorem written (c : Dev nD) (t : Fin cfg4.N) :
    (dat4 V c).flushed 2 t = ((cfg4.win 2).blk t).view.read (Elt F) (mix (V c main_v1) (V c main_v43)) := by
  show (cfg4.win 2).cut (grid4.coords t) ((dat4 V c).after 2 t) = _
  rw [after4_2]
  unfold out4_2
  rw [View.canon_unit_zero origin]
  simp only [View.ld_unit_zero (S := S5000x128) origin]
  obtain ⟨e0, e1, e2, e3, e4, e5⟩ := tile_index t
  funext j
  show k4_pay1 (iblk4 V c 0 t) (iblk4 V c 1 t) j = _
  rw [tile_value]
  show FloatOps.addf (FloatOps.mulf (Scalar.ofBits .f32 0x3C23D70A#32) (V c main_v1 (((cfg4.win 0).blk t).view.emb j))) (V c main_v43 (((cfg4.win 1).blk t).view.emb j))
    = FloatOps.addf (FloatOps.mulf (Scalar.ofBits .f32 0x3C23D70A#32) (V c main_v1 (((cfg4.win 2).blk t).view.emb j))) (V c main_v43 (((cfg4.win 2).blk t).view.emb j))
  have h0 : ((cfg4.win 0).blk t).view.emb j = ((cfg4.win 2).blk t).view.emb j := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 5000 + 1 * (j 0).val = win4_2.index t (0 : Fin 2) * 5000 + 1 * (j 0).val; omega
    | ⟨1, _⟩ => show win4_1.index t (1 : Fin 2) * 128 + 1 * (j 1).val = win4_2.index t (1 : Fin 2) * 128 + 1 * (j 1).val; omega
  rw [h0, h1]

/-- An index lies in tile t iff each coordinate lies in the tile's range on its axis. -/
theorem in_tile (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v83).slice (win4_2.rect t)).set ↔ _
  rw [View.set_slice_whole, Rect.mem_set_unit]
  exact Iff.rfl

/-- The tiles cover the array: row r lies in tile r / 5000. -/
theorem tiles_cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := tile_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [in_tile]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the call the output array is c · h + a of the two input arrays as the call found them. -/
theorem result (c : Dev nD) : (dat4 V c).arrAt 2 cfg4.N = mix (V c main_v1) (V c main_v43) :=
  (dat4 V c).arrAt_eq_of_cover 2 (mix (V c main_v1) (V c main_v43)) (fun t _ => written V c t) tiles_cover

end Cert.KernelIdeal.MovieMix1

end
-- ==== Proof.DirectorMix1.lean ====
/-
  The first-layer combine step for the director nodes: one pallas_call over 4 row tiles of 5000 rows, whose body
  writes, element by element, c · h + a, where h is the tile of the current director embedding, a the tile of the
  aggregated neighbour messages, and c the single-precision literal nearest to 1/100.  Every tile reads the two
  inputs through the same rectangle it writes, and the 4 tiles partition the 20000 rows, so after the call
  the output array is the whole-array function  i ↦ c · h i + a i  of the two input arrays as the call found them.
-/
import proofs.«117898_j80599356276853_1_alg».proof.Proof.Gen.KernelIdeal.Frame
import Idealize.ShloMosaic.Lib.Pipeline.Value

set_option maxRecDepth 16384

noncomputable section

namespace Cert.KernelIdeal.DirectorMix1

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The array the call leaves: c · h + a, index by index. -/
abbrev mix (h a : S20000x128.Idx → Elt F .f32) : S20000x128.Idx → Elt F .f32 :=
  fun i => FloatOps.addf (FloatOps.mulf (Scalar.ofBits .f32 0x3C23D70A#32) (h i)) (a i)

/-- The body's value on a tile is c · h + a of the two loaded tiles (the two reshapes are to the same shape). -/
theorem tile_value (x0 x1 : Vec F S5000x128 .f32) (j : S5000x128.Idx) :
    k5_pay1 x0 x1 j = FloatOps.addf (FloatOps.mulf (Scalar.ofBits .f32 0x3C23D70A#32) (x0 j)) (x1 j) := by
  unfold k5_pay1
  simp only [shapeCast_self]
  rfl

/-- All three windows move together: tile t is rows 5000·t … 5000·t + 4999, all 128 columns. -/
theorem tile_index : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) ≤ 3
    ∧ win5_2.index t (1 : Fin 2) = 0 :=
  (by decide +kernel : ∀ t : Fin grid5.N, _)

/-- Every row tile is some grid point's. -/
theorem tile_onto : ∀ (q0 : Fin 4), ∃ t : Fin cfg5.N, win5_2.index t = ![q0.val, 0] :=
  (by decide +kernel : ∀ (q0 : Fin 4), ∃ t : Fin grid5.N, win5_2.index t = ![q0.val, 0])

/-- What grid point t writes back is tile t of c · h + a of the input arrays as the call finds them. -/
theorem written (c : Dev nD) (t : Fin cfg5.N) :
    (dat5 V c).flushed 2 t = ((cfg5.win 2).blk t).view.read (Elt F) (mix (V c main_v2) (V c main_v81)) := by
  show (cfg5.win 2).cut (grid5.coords t) ((dat5 V c).after 2 t) = _
  rw [after5_2]
  unfold out5_2
  rw [View.canon_unit_zero origin]
  simp only [View.ld_unit_zero (S := S5000x128) origin]
  obtain ⟨e0, e1, e2, e3, e4, e5⟩ := tile_index t
  funext j
  show k5_pay1 (iblk5 V c 0 t) (iblk5 V c 1 t) j = _
  rw [tile_value]
  show FloatOps.addf (FloatOps.mulf (Scalar.ofBits .f32 0x3C23D70A#32) (V c main_v2 (((cfg5.win 0).blk t).view.emb j))) (V c main_v81 (((cfg5.win 1).blk t).view.emb j))
    = FloatOps.addf (FloatOps.mulf (Scalar.ofBits .f32 0x3C23D70A#32) (V c main_v2 (((cfg5.win 2).blk t).view.emb j))) (V c main_v81 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb j = ((cfg5.win 2).blk t).view.emb j := by
    funext a; apply Fin.ext
    match a with
    | ⟨0, _⟩ => show win5_1.index t (0 : Fin 2) * 5000 + 1 * (j 0).val = win5_2.index t (0 : Fin 2) * 5000 + 1 * (j 0).val; omega
    | ⟨1, _⟩ => show win5_1.index t (1 : Fin 2) * 128 + 1 * (j 1).val = win5_2.index t (1 : Fin 2) * 128 + 1 * (j 1).val; omega
  rw [h0, h1]

/-- An index lies in tile t iff each coordinate lies in the tile's range on its axis. -/
theorem in_tile (t : Fin cfg5.N) (i : S20000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v84).slice (win5_2.rect t)).set ↔ _
  rw [View.set_slice_whole, Rect.mem_set_unit]
  exact Iff.rfl

/-- The tiles cover the array: row r lies in tile r / 5000. -/
theorem tiles_cover (i : S20000x128.Idx) :
    ∃ t : Fin cfg5.N, (cfg5.win 2).flush t = true ∧ i ∈ ((cfg5.win 2).blk t).view.set := by
  have hi0 : (i 0).val < 20000 := (i 0).isLt
  have hi1 : (i 1).val < 128 := (i 1).isLt
  obtain ⟨t, ht⟩ := tile_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [in_tile]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- After the call the output array is c · h + a of the two input arrays as the call found them. -/
theorem result (c : Dev nD) : (dat5 V c).arrAt 2 cfg5.N = mix (V c main_v2) (V c main_v81) :=
  (dat5 V c).arrAt_eq_of_cover 2 (mix (V c main_v2) (V c main_v81)) (fun t _ => written V c t) tiles_cover

end Cert.KernelIdeal.DirectorMix1

end
-- ==== Proof.MovieMix2.lean ====
/-
  The second-layer combine step for the movie nodes: one pallas_call over 20 row tiles of 5000 rows, whose body
  writes, element by element, c · h + a, where h is the tile of the current movie embedding, a the tile of the
  aggregated neighbour messages, and c the single-precision literal nearest to 1/100.  Every tile reads the two
  inputs through the same rectangle it writes, and the 20 tiles partition the 100000 rows, so after the call
  the output array is the whole-array function  i ↦ c · h i + a i  of the two input arrays as the call found them.
-/
import proofs.«117898_j80599356276853_1_alg».proof.Proof.Gen.KernelIdeal.Frame
import Idealize.ShloMosaic.Lib.Pipeline.Value

set_option maxRecDepth 16384

noncomputable section

namespace Cert.KernelIdeal.MovieMix2

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The array the call leaves: c · h + a, index by index. -/
abbrev mix (h a : S100000x128.Idx → Elt F .f32) : S100000x128.Idx → Elt F .f32 :=
  fun i => FloatOps.addf (FloatOps.mulf (Scalar.ofBits .f32 0x3C23D70A#32) (h i)) (a i)

/-- The body's value on a tile is c · h + a of the two loaded tiles (the two reshapes are to the same shape). -/
theorem tile_value (x0 x1 : Vec F S5000x128 .f32) (j : S5000x128.Idx) :
    k7_pay1 x0 x1 j = FloatOps.addf (FloatOps.mulf (Scalar.ofBits .f32 0x3C23D70A#32) (x0 j)) (x1 j) := by
  unfold k7_pay1
  simp only [shapeCast_self]
  rfl

/-- All three windows move together: tile t is rows 5000·t … 5000·t + 4999, all 128 columns. -/
theorem tile_index : ∀ t : Fin cfg7.N, win7_0.index t (0 : Fin 2) = win7_2.index t (0 : Fin 2)
    ∧ win7_0.index t (1 : Fin 2) = win7_2.index t (1 : Fin 2)
    ∧ win7_1.index t (0 : Fin 2) = win7_2.index t (0 : Fin 2)
    ∧ win7_1.index t (1 : Fin 2) = win7_2.index t (1 : Fin 2)
    ∧ win7_2.index t (0 : Fin 2) ≤ 19
    ∧ win7_2.index t (1 : Fin 2) = 0 :=
  (by decide +kernel : ∀ t : Fin grid7.N, _)

/-- Every row tile is some grid point's. -/
theorem tile_onto : ∀ (q0 : Fin 20), ∃ t : Fin cfg7.N, win7_2.index t = ![q0.val, 0] :=
  (by decide +kernel : ∀ (q0 : Fin 20), ∃ t : Fin grid7.N, win7_2.index t = ![q0.val, 0])

/-- What grid point t writes back is tile t of c · h + a of the input arrays as the call finds them. -/
theorem written (c : Dev nD) (t : Fin cfg7.N) :
    (dat7 V c).flushed 2 t = ((cfg7.win 2).blk t).view.read (Elt F) (mix (V c main_v83) (V c main_v125)) := by
  show (cfg7.win 2).cut (grid7.coords t) ((dat7 V c).after 2 t) = _
  rw [after7_2]
  unfold out7_2
  rw [View.canon_unit_zero origin]
  simp only [View.ld_unit_zero (S := S5000x128) origin]
  obtain ⟨e0, e1, e2, e3, e4, e5⟩ := tile_index t
  funext j
  show k7_pay1 (iblk7 V c 0 t) (iblk7 V c 1 t) j = _
  rw [tile_value]
  show FloatOps.addf (FloatOps.mulf (Scalar.ofBits .f32 0x3C23D70A#32) (V c main_v83 (((cfg7.win 0).blk t).view.emb j))) (V c main_v125 (((cfg7.win 1).blk t).view.emb j))
    = FloatOps.addf (FloatOps.mulf (Scalar.ofBits .f32 0x3C23D70A#32) (V c main_v83 (((cfg7.win 2).blk t).view.emb j))) (V c main_v125 (((cfg7.win 2).blk t).view.emb j))
  have h0 : ((cfg7.win 0).blk t).view.emb j = ((cfg7.win 2).blk t).view.emb j := by
    funext a; apply Fin.ext
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 128 + 1 * (j 1).val = win7_2.index t (1 : Fin 2) * 128 + 1 * (j 1).val; omega
  have h1 : ((cfg7.win 1).blk t).view.emb j = ((cfg7.win 2).blk t).view.emb j := by
    funext a; apply Fin.ext
    match a with
    | ⟨0, _⟩ => show win7_1.index t (0 : Fin 2) * 5000 + 1 * (j 0).val = win7_2.index t (0 : Fin 2) * 5000 + 1 * (j 0).val; omega
    | ⟨1, _⟩ => show win7_1.index t (1 : Fin 2) * 128 + 1 * (j 1).val = win7_2.index t (1 : Fin 2) * 128 + 1 * (j 1).val; omega
  rw [h0, h1]

/-- An index lies in tile t iff each coordinate lies in the tile's range on its axis. -/
theorem in_tile (t : Fin cfg7.N) (i : S100000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v165).slice (win7_2.rect t)).set ↔ _
  rw [View.set_slice_whole, Rect.mem_set_unit]
  exact Iff.rfl

/-- The tiles cover the array: row r lies in tile r / 5000. -/
theorem tiles_cover (i : S100000x128.Idx) :
    ∃ t : Fin cfg7.N, (cfg7.win 2).flush t = true ∧ i ∈ ((cfg7.win 2).blk t).view.set := by
  have hi0 : (i 0).val < 100000 := (i 0).isLt
  have hi1 : (i 1).val < 128 := (i 1).isLt
  obtain ⟨t, ht⟩ := tile_onto ⟨(i 0).val / 5000, by omega⟩
  have q0 : win7_2.index t (0 : Fin 2) = (i 0).val / 5000 := congrFun ht 0
  have q1 : win7_2.index t (1 : Fin 2) = 0 := congrFun ht 1
  refine ⟨t, flush7_2 t, ?_⟩
  rw [in_tile]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 128 ≤ (i 1).val ∧ (i 1).val < win7_2.index t (1 : Fin 2) * 128 + 128; omega

/-- After the call the output array is c · h + a of the two input arrays as the call found them. -/
theorem result (c : Dev nD) : (dat7 V c).arrAt 2 cfg7.N = mix (V c main_v83) (V c main_v125) :=
  (dat7 V c).arrAt_eq_of_cover 2 (mix (V c main_v83) (V c main_v125)) (fun t _ => written V c t) tiles_cover

end Cert.KernelIdeal.MovieMix2

end
-- ==== Proof.LogitTile.lean ====
/-
  One row tile of the output layer.  On a tile of 10000 rows of the final movie embedding h the body computes the
  matrix product of the tile with the transpose of the 16 × 128 output weight (contracting the second axis of both,
  accumulated into zero; the narrowings to half precision are the identity on extended reals) and adds the bias along
  rows.  So entry (p, q) of the tile is  Σ_k h[p, k] · W[q, k] + b[q].
-/
import proofs.«117898_j80599356276853_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.LogitTile

open Cert.KernelIdeal Cert.KernelIdeal.Gen Idealize.ShloMosaic Idealize.ShloMosaic.ValueIdx

/-- The product's left operand index at output (p, q) and contraction coordinate k is (p, k). -/
theorem left_index (j : S10000x16.Idx) (κ : dot_S10000x128_S16x128_S10000x16_1_1_0_0_n_n.contr.Idx) (k : Fin 128)
    (hk : (κ ⟨0, by decide⟩).val = k.val) :
    dot_S10000x128_S16x128_S10000x16_1_1_0_0_n_n.lhsIdx j κ = (fun a => match a with
      | ⟨0, _⟩ => ⟨(j 0).val, (j 0).isLt⟩
      | ⟨1, _⟩ => ⟨k.val, k.isLt⟩ : S10000x128.Idx) := funext fun a => Fin.ext (by
    match a with
    | ⟨0, _⟩ =>
      show (dot_S10000x128_S16x128_S10000x16_1_1_0_0_n_n.lhsIdx j κ 0).val = (j 0).val
      unfold DotDims.lhsIdx
      rw [dif_neg (show ¬(0 : Fin S10000x128.rank) ∈ dot_S10000x128_S16x128_S10000x16_1_1_0_0_n_n.lhsBatch by decide), dif_pos (show (0 : Fin S10000x128.rank) ∈ dot_S10000x128_S16x128_S10000x16_1_1_0_0_n_n.lhsNonContracting by decide)]
      rfl
    | ⟨1, _⟩ => exact (dot_S10000x128_S16x128_S10000x16_1_1_0_0_n_n.lhsIdx_val_of_single rfl j κ).trans hk)

/-- The product's right operand index at output (p, q) and contraction coordinate k is (q, k): the weight is read transposed. -/
theorem right_index (j : S10000x16.Idx) (κ : dot_S10000x128_S16x128_S10000x16_1_1_0_0_n_n.contr.Idx) (k : Fin 128)
    (hk : (κ ⟨0, by decide⟩).val = k.val) :
    dot_S10000x128_S16x128_S10000x16_1_1_0_0_n_n.rhsIdx j κ = (fun a => match a with
      | ⟨0, _⟩ => ⟨(j 1).val, (j 1).isLt⟩
      | ⟨1, _⟩ => ⟨k.val, k.isLt⟩ : S16x128.Idx) := funext fun a => Fin.ext (by
    match a with
    | ⟨0, _⟩ =>
      show (dot_S10000x128_S16x128_S10000x16_1_1_0_0_n_n.rhsIdx j κ 0).val = (j 1).val
      unfold DotDims.rhsIdx
      rw [dif_neg (show ¬(0 : Fin S16x128.rank) ∈ dot_S10000x128_S16x128_S10000x16_1_1_0_0_n_n.rhsBatch by decide), dif_pos (show (0 : Fin S16x128.rank) ∈ dot_S10000x128_S16x128_S10000x16_1_1_0_0_n_n.rhsNonContracting by decide)]
      rfl
    | ⟨1, _⟩ => exact (dot_S10000x128_S16x128_S10000x16_1_1_0_0_n_n.rhsIdx_val_of_single rfl j κ).trans hk)

/-- The tile's matrix product at an entry is the sum over the 128 contraction coordinates. -/
theorem product_entry (x : FVec Ideal S10000x128 .bf16) (W : FVec Ideal S16x128 .bf16) (j : S10000x16.Idx) :
    matmul dot_S10000x128_S16x128_S10000x16_1_1_0_0_n_n none x W (constant S10000x16 .f32 0x00000000#32) j
      = ∑ k : Fin 128, x (fun a => match a with | ⟨0, _⟩ => ⟨(j 0).val, (j 0).isLt⟩ | ⟨1, _⟩ => ⟨k.val, k.isLt⟩)
          * W (fun a => match a with | ⟨0, _⟩ => ⟨(j 1).val, (j 1).isLt⟩ | ⟨1, _⟩ => ⟨k.val, k.isLt⟩) := by
  show FloatOps.matmul _ _ _ _ _ j = _
  rw [Ideal.matmul_constant_zero_apply, ← Equiv.sum_comp (contrEquiv1 dot_S10000x128_S16x128_S10000x16_1_1_0_0_n_n 128 rfl rfl).symm]
  refine Finset.sum_congr rfl fun k _ => ?_
  have hk := contrEquiv1_symm_val dot_S10000x128_S16x128_S10000x16_1_1_0_0_n_n 128 rfl rfl k
  rw [left_index j _ k hk, right_index j _ k hk]

/-- The bias, reshaped to one row and repeated along the rows, read at (p, q) is b[q]. -/
theorem bias_entry (b : Vec Ideal S16 .f32) (j : S10000x16.Idx) :
    broadcastTo S10000x16 (shapeCast S1x16 b shapeCasts_S16_S1x16) broadcasts_S1x16_S10000x16 j
      = b (fun a => match a with | ⟨0, _⟩ => ⟨(j 1).val, (j 1).isLt⟩) := by
  rw [broadcastTo_apply _ broadcasts_S1x16_S10000x16 j (fun a => match a with
      | ⟨0, _⟩ => ⟨0, Nat.one_pos⟩
      | ⟨1, _⟩ => ⟨(j 1).val, (j 1).isLt⟩) (fun a => match a with
    | ⟨0, _⟩ => by show 0 = if (1 : Nat) = 1 then 0 else (j 0).val; rw [if_pos rfl]
    | ⟨1, _⟩ => by show (j 1).val = if (16 : Nat) = 1 then 0 else (j 1).val; rw [if_neg (by decide)])]
  rw [shapeCast_addUnit_apply]
  exact congrArg b (funext fun a => match a with | ⟨0, _⟩ => rfl)

/-- Entry (p, q) of a tile of the output layer: Σ_k h[p, k] · W[q, k] + b[q]. -/
theorem logit_tile (x : Vec Ideal S10000x128 .f32) (W : Vec Ideal S16x128 .f32) (b : Vec Ideal S16 .f32) (j : S10000x16.Idx) :
    k9_pay1 (F := Ideal) x W b j
      = (∑ k : Fin 128, x (fun a => match a with | ⟨0, _⟩ => ⟨(j 0).val, (j 0).isLt⟩ | ⟨1, _⟩ => ⟨k.val, k.isLt⟩)
          * W (fun a => match a with | ⟨0, _⟩ => ⟨(j 1).val, (j 1).isLt⟩ | ⟨1, _⟩ => ⟨k.val, k.isLt⟩))
        + b (fun a => match a with | ⟨0, _⟩ => ⟨(j 1).val, (j 1).isLt⟩) := by
  unfold k9_pay1
  rw [addf_apply, product_entry, bias_entry]
  simp only [shapeCast_self]
  rfl

end Cert.KernelIdeal.LogitTile

end
-- ==== Proof.MovieLogits.lean ====
/-
  The output layer: one pallas_call over 10 row tiles of 10000 rows of the final movie embedding h.  Each tile's body
  writes Σ_k h[p, k] · W[q, k] + b[q] at entry (p, q) (W the 16 × 128 output weight, read whole at every point, b the
  bias).  Tile t reads rows 10000·t … of h and writes the same rows of the output, and the 10 tiles partition the
  100000 rows, so after the call the output array is  i ↦ Σ_k h[i₀, k] · W[i₁, k] + b[i₁]  of the arrays as found.
-/
import proofs.«117898_j80599356276853_1_alg».proof.Proof.Gen.KernelIdeal.Frame
import proofs.«117898_j80599356276853_1_alg».proof.Proof.LogitTile
import Idealize.ShloMosaic.Lib.Pipeline.Value

set_option maxRecDepth 16384

noncomputable section

namespace Cert.KernelIdeal.MovieLogits

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- Row i₀ of x at column k; row i₁ of the weight at column k; entry i₁ of the bias. -/
abbrev xi (i : S100000x16.Idx) (k : Fin 128) : S100000x128.Idx := fun a => match a with
  | ⟨0, _⟩ => ⟨(i 0).val, (i 0).isLt⟩
  | ⟨1, _⟩ => ⟨k.val, k.isLt⟩
abbrev wi (i : S100000x16.Idx) (k : Fin 128) : S16x128.Idx := fun a => match a with
  | ⟨0, _⟩ => ⟨(i 1).val, (i 1).isLt⟩
  | ⟨1, _⟩ => ⟨k.val, k.isLt⟩
abbrev bi (i : S100000x16.Idx) : S16.Idx := fun a => match a with
  | ⟨0, _⟩ => ⟨(i 1).val, (i 1).isLt⟩
/-- The same three inside a tile. -/
abbrev txi (j : S10000x16.Idx) (k : Fin 128) : S10000x128.Idx := fun a => match a with
  | ⟨0, _⟩ => ⟨(j 0).val, (j 0).isLt⟩
  | ⟨1, _⟩ => ⟨k.val, k.isLt⟩
abbrev twi (j : S10000x16.Idx) (k : Fin 128) : S16x128.Idx := fun a => match a with
  | ⟨0, _⟩ => ⟨(j 1).val, (j 1).isLt⟩
  | ⟨1, _⟩ => ⟨k.val, k.isLt⟩
abbrev tbi (j : S10000x16.Idx) : S16.Idx := fun a => match a with
  | ⟨0, _⟩ => ⟨(j 1).val, (j 1).isLt⟩

/-- The array the call leaves, index by index. -/
abbrev layer (x : S100000x128.Idx → Elt Ideal .f32) (W : S16x128.Idx → Elt Ideal .f32) (b : S16.Idx → Elt Ideal .f32) : S100000x16.Idx → Elt Ideal .f32 :=
  fun i => (∑ k : Fin 128, x (xi i k) * W (wi i k)) + b (bi i)

/-- The same expression inside a tile, of the three loaded tiles. -/
abbrev tileEntry (X : S10000x128.Idx → Elt Ideal .f32) (Wt : S16x128.Idx → Elt Ideal .f32) (B : S16.Idx → Elt Ideal .f32) (j : S10000x16.Idx) : Elt Ideal .f32 :=
  (∑ k : Fin 128, X (txi j k) * Wt (twi j k)) + B (tbi j)

/-- Tile t of x and of the output are rows 10000·t …, all columns; the weight and the bias are read whole. -/
theorem tile_index : ∀ t : Fin cfg9.N, win9_0.index t (0 : Fin 2) = win9_3.index t (0 : Fin 2)
    ∧ win9_0.index t (1 : Fin 2) = 0
    ∧ win9_1.index t (0 : Fin 2) = 0
    ∧ win9_1.index t (1 : Fin 2) = 0
    ∧ win9_2.index t (0 : Fin 1) = 0
    ∧ win9_3.index t (0 : Fin 2) ≤ 9
    ∧ win9_3.index t (1 : Fin 2) = 0 :=
  (by decide +kernel : ∀ t : Fin grid9.N, _)

/-- Every row tile is some grid point's. -/
theorem tile_onto : ∀ (q0 : Fin 10), ∃ t : Fin cfg9.N, win9_3.index t = ![q0.val, 0] :=
  (by decide +kernel : ∀ (q0 : Fin 10), ∃ t : Fin grid9.N, win9_3.index t = ![q0.val, 0])

set_option maxHeartbeats 2000000 in
/-- What grid point t writes back is tile t of the layer of the input arrays as the call finds them. -/
theorem written (c : Dev nD) (t : Fin cfg9.N) :
    (dat9 V c).flushed 3 t = ((cfg9.win 3).blk t).view.read (Elt Ideal) (layer (V c main_v165) (V c main_arg9) (V c main_arg10)) := by
  show (cfg9.win 3).cut (grid9.coords t) ((dat9 V c).after 3 t) = _
  rw [after9_3]
  unfold out9_3
  rw [View.canon_unit_zero origin2]
  simp only [View.ld_unit_zero (S := S10000x128) origin2, View.ld_unit_zero (S := S16x128) origin2, View.ld_unit_zero (S := S16) origin1]
  obtain ⟨e0, e1, e2, e3, e4, e5, e6⟩ := tile_index t
  funext j
  show k9_pay1 (F := Ideal) (iblk9 V c 0 t) (iblk9 V c 1 t) (iblk9 V c 2 t) j = _
  rw [LogitTile.logit_tile]
  have hx : ∀ k : Fin 128, iblk9 V c 0 t (txi j k) = V c main_v165 (xi (((cfg9.win 3).blk t).view.emb j) k) := fun k => by
    show V c main_v165 (((cfg9.win 0).blk t).view.emb (txi j k)) = _
    refine congrArg (V c main_v165) (funext fun a => Fin.ext ?_)
    match a with
    | ⟨0, _⟩ => show win9_0.index t (0 : Fin 2) * 10000 + 1 * (j 0).val = win9_3.index t (0 : Fin 2) * 10000 + 1 * (j 0).val; omega
    | ⟨1, _⟩ => show win9_0.index t (1 : Fin 2) * 128 + 1 * k.val = k.val; omega
  have hw : ∀ k : Fin 128, iblk9 V c 1 t (twi j k) = V c main_arg9 (wi (((cfg9.win 3).blk t).view.emb j) k) := fun k => by
    show V c main_arg9 (((cfg9.win 1).blk t).view.emb (twi j k)) = _
    refine congrArg (V c main_arg9) (funext fun a => Fin.ext ?_)
    match a with
    | ⟨0, _⟩ => show win9_1.index t (0 : Fin 2) * 16 + 1 * (j 1).val = win9_3.index t (1 : Fin 2) * 16 + 1 * (j 1).val; omega
    | ⟨1, _⟩ => show win9_1.index t (1 : Fin 2) * 128 + 1 * k.val = k.val; omega
  have hb : iblk9 V c 2 t (tbi j) = V c main_arg10 (bi (((cfg9.win 3).blk t).view.emb j)) := by
    show V c main_arg10 (((cfg9.win 2).blk t).view.emb (tbi j)) = _
    refine congrArg (V c main_arg10) (funext fun a => Fin.ext ?_)
    match a with
    | ⟨0, _⟩ => show win9_2.index t (0 : Fin 1) * 16 + 1 * (j 1).val = win9_3.index t (1 : Fin 2) * 16 + 1 * (j 1).val; omega
  show tileEntry (iblk9 V c 0 t) (iblk9 V c 1 t) (iblk9 V c 2 t) j = _
  simp only [tileEntry, hx, hw, hb]
  rfl

/-- An index lies in tile t iff each coordinate lies in the tile's range on its axis. -/
theorem in_tile (t : Fin cfg9.N) (i : S100000x16.Idx) :
    i ∈ ((cfg9.win 3).blk t).view.set ↔ ∀ a : Fin 2, win9_3.index t a * S10000x16.size a ≤ (i a).val ∧ (i a).val < win9_3.index t a * S10000x16.size a + S10000x16.size a := by
  show i ∈ ((View.whole main_v167).slice (win9_3.rect t)).set ↔ _
  rw [View.set_slice_whole, Rect.mem_set_unit]
  exact Iff.rfl

/-- The tiles cover the array: row r lies in tile r / 10000. -/
theorem tiles_cover (i : S100000x16.Idx) :
    ∃ t : Fin cfg9.N, (cfg9.win 3).flush t = true ∧ i ∈ ((cfg9.win 3).blk t).view.set := by
  have hi0 : (i 0).val < 100000 := (i 0).isLt
  have hi1 : (i 1).val < 16 := (i 1).isLt
  obtain ⟨t, ht⟩ := tile_onto ⟨(i 0).val / 10000, by omega⟩
  have q0 : win9_3.index t (0 : Fin 2) = (i 0).val / 10000 := congrFun ht 0
  have q1 : win9_3.index t (1 : Fin 2) = 0 := congrFun ht 1
  refine ⟨t, flush9_3 t, ?_⟩
  rw [in_tile]
  intro a
  match a with
  | ⟨0, _⟩ => show win9_3.index t (0 : Fin 2) * 10000 ≤ (i 0).val ∧ (i 0).val < win9_3.index t (0 : Fin 2) * 10000 + 10000; omega
  | ⟨1, _⟩ => show win9_3.index t (1 : Fin 2) * 16 ≤ (i 1).val ∧ (i 1).val < win9_3.index t (1 : Fin 2) * 16 + 16; omega

/-- After the call the output array is the layer of the input arrays as the call found them. -/
theorem result (c : Dev nD) : (dat9 V c).arrAt 3 cfg9.N = layer (V c main_v165) (V c main_arg9) (V c main_arg10) :=
  (dat9 V c).arrAt_eq_of_cover 3 (layer (V c main_v165) (V c main_arg9) (V c main_arg10)) (fun t _ => written V c t) tiles_cover

end Cert.KernelIdeal.MovieLogits

end
-- ==== Proof.Bridge.lean ====
/-
  The reference's stages are the whole-array functions the pallas_calls compute.  The reference forms x · Wᵀ by
  transposing the weight and contracting the second axis of x with the first axis of the transpose; entry (i₀, i₁) of
  that product is Σ_k x[i₀, k] · W[i₁, k], the sum each tile's matrix product computes.  Its bias is broadcast to one row
  and then along the rows, its clamp is a maximum with the zero splat, and its combine step multiplies by the splat of
  the same single-precision literal.  Each equation below is read off index by index.
-/
import proofs.«117898_j80599356276853_1_alg».proof.Proof.Gen.ReferenceIdeal.Read
import proofs.«117898_j80599356276853_1_alg».proof.Proof.UserEmbed
import proofs.«117898_j80599356276853_1_alg».proof.Proof.MovieEmbed
import proofs.«117898_j80599356276853_1_alg».proof.Proof.DirectorEmbed
import proofs.«117898_j80599356276853_1_alg».proof.Proof.UserMix1
import proofs.«117898_j80599356276853_1_alg».proof.Proof.MovieMix1
import proofs.«117898_j80599356276853_1_alg».proof.Proof.DirectorMix1
import proofs.«117898_j80599356276853_1_alg».proof.Proof.MovieMix2
import proofs.«117898_j80599356276853_1_alg».proof.Proof.MovieLogits

set_option maxRecDepth 16384

noncomputable section

namespace Cert.KernelIdeal.Bridge

open Cert.KernelIdeal Idealize.ShloMosaic Idealize.ShloMosaic.TcCoe
open Cert.ReferenceIdeal.Read

/-- The reference's user embedding stage (transpose, product, bias along rows, clamp at zero) is the layer function. -/
theorem user0 (x0 : (⟨S200000x128, .f32⟩ : BufTy).Contents (Elt Ideal)) (x3 : (⟨S128x128, .f32⟩ : BufTy).Contents (Elt Ideal)) (x4 : (⟨S128, .f32⟩ : BufTy).Contents (Elt Ideal)) :
    val_main_v5 (F := Ideal) x0 x3 x4 = UserEmbed.layer x0 x3 x4 := by
  funext i
  rw [val_main_v5_apply, val_main_v4_apply, val_main_v1_apply, val_main_v3_apply, val_main_v2_apply, val_main_call0_v0_apply, val_main_call0_cst_apply]
  simp only [val_main_v0_apply]
  have e1 : ∀ k : Fin 128, idx_main_v0 (ridx_main_v1 i k) = UserEmbed.wi i k := fun k => funext fun a => by
    match a with
    | ⟨0, _⟩ => rfl
    | ⟨1, _⟩ => rfl
  have e2 : idx_main_v2 (idx_main_v3 i) = UserEmbed.bi i := funext fun a => by
    match a with
    | ⟨0, _⟩ => rfl
  simp only [e1, e2]
  rfl

/-- The reference's movie embedding stage (transpose, product, bias along rows, clamp at zero) is the layer function. -/
theorem movie0 (x1 : (⟨S100000x128, .f32⟩ : BufTy).Contents (Elt Ideal)) (x5 : (⟨S128x128, .f32⟩ : BufTy).Contents (Elt Ideal)) (x6 : (⟨S128, .f32⟩ : BufTy).Contents (Elt Ideal)) :
    val_main_v11 (F := Ideal) x1 x5 x6 = MovieEmbed.layer x1 x5 x6 := by
  funext i
  rw [val_main_v11_apply, val_main_v10_apply, val_main_v7_apply, val_main_v9_apply, val_main_v8_apply, val_main_call1_v0_apply, val_main_call1_cst_apply]
  simp only [val_main_v6_apply]
  have e1 : ∀ k : Fin 128, idx_main_v6 (ridx_main_v7 i k) = MovieEmbed.wi i k := fun k => funext fun a => by
    match a with
    | ⟨0, _⟩ => rfl
    | ⟨1, _⟩ => rfl
  have e2 : idx_main_v8 (idx_main_v9 i) = MovieEmbed.bi i := funext fun a => by
    match a with
    | ⟨0, _⟩ => rfl
  simp only [e1, e2]
  rfl

/-- The reference's director embedding stage (transpose, product, bias along rows, clamp at zero) is the layer function. -/
theorem director0 (x2 : (⟨S20000x128, .f32⟩ : BufTy).Contents (Elt Ideal)) (x7 : (⟨S128x128, .f32⟩ : BufTy).Contents (Elt Ideal)) (x8 : (⟨S128, .f32⟩ : BufTy).Contents (Elt Ideal)) :
    val_main_v17 (F := Ideal) x2 x7 x8 = DirectorEmbed.layer x2 x7 x8 := by
  funext i
  rw [val_main_v17_apply, val_main_v16_apply, val_main_v13_apply, val_main_v15_apply, val_main_v14_apply, val_main_call2_v0_apply, val_main_call2_cst_apply]
  simp only [val_main_v12_apply]
  have e1 : ∀ k : Fin 128, idx_main_v12 (ridx_main_v13 i k) = DirectorEmbed.wi i k := fun k => funext fun a => by
    match a with
    | ⟨0, _⟩ => rfl
    | ⟨1, _⟩ => rfl
  have e2 : idx_main_v14 (idx_main_v15 i) = DirectorEmbed.bi i := funext fun a => by
    match a with
    | ⟨0, _⟩ => rfl
  simp only [e1, e2]
  rfl

/-- The reference's user1 combine stage is c · h + a of its own embedding and aggregate. -/
theorem user1 (x0 : (⟨S200000x128, .f32⟩ : BufTy).Contents (Elt Ideal)) (x1 : (⟨S100000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x13 : (⟨S600000, .i32⟩ : BufTy).Contents (Elt Ideal)) (x14 : (⟨S600000, .i32⟩ : BufTy).Contents (Elt Ideal)) :
    val_main_v99 (F := Ideal) x0 x1 x3 x4 x5 x6 x13 x14 = UserMix1.mix (val_main_v5 (F := Ideal) x0 x3 x4) (val_main_v77 (F := Ideal) x1 x5 x6 x13 x14) := by
  funext i
  rw [val_main_v99_apply, val_main_v98_apply, val_main_v97_apply, val_main_cst_23_apply]

/-- The reference's movie1 combine stage is c · h + a of its own embedding and aggregate. -/
theorem movie1 (x0 : (⟨S200000x128, .f32⟩ : BufTy).Contents (Elt Ideal)) (x1 : (⟨S100000x128, .f32⟩ : BufTy).Contents (Elt Ideal)) (x2 : (⟨S20000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x11 : (⟨S600000, .i32⟩ : BufTy).Contents (Elt Ideal)) (x12 : (⟨S600000, .i32⟩ : BufTy).Contents (Elt Ideal)) (x15 : (⟨S100000, .i32⟩ : BufTy).Contents (Elt Ideal)) (x16 : (⟨S100000, .i32⟩ : BufTy).Contents (Elt Ideal)) :
    val_main_v102 (F := Ideal) x0 x1 x2 x3 x4 x5 x6 x7 x8 x11 x12 x15 x16 = MovieMix1.mix (val_main_v11 (F := Ideal) x1 x5 x6) (val_main_v58 (F := Ideal) x0 x2 x3 x4 x7 x8 x11 x12 x15 x16) := by
  funext i
  rw [val_main_v102_apply, val_main_v101_apply, val_main_v100_apply, val_main_cst_24_apply]

/-- The reference's director1 combine stage is c · h + a of its own embedding and aggregate. -/
theorem director1 (x1 : (⟨S100000x128, .f32⟩ : BufTy).Contents (Elt Ideal)) (x2 : (⟨S20000x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x17 : (⟨S100000, .i32⟩ : BufTy).Contents (Elt Ideal)) (x18 : (⟨S100000, .i32⟩ : BufTy).Contents (Elt Ideal)) :
    val_main_v105 (F := Ideal) x1 x2 x5 x6 x7 x8 x17 x18 = DirectorMix1.mix (val_main_v17 (F := Ideal) x2 x7 x8) (val_main_v96 (F := Ideal) x1 x5 x6 x17 x18) := by
  funext i
  rw [val_main_v105_apply, val_main_v104_apply, val_main_v103_apply, val_main_cst_25_apply]

/-- The reference's movie2 combine stage is c · h + a of its own embedding and aggregate. -/
theorem movie2 (x0 : (⟨S200000x128, .f32⟩ : BufTy).Contents (Elt Ideal)) (x1 : (⟨S100000x128, .f32⟩ : BufTy).Contents (Elt Ideal)) (x2 : (⟨S20000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x11 : (⟨S600000, .i32⟩ : BufTy).Contents (Elt Ideal)) (x12 : (⟨S600000, .i32⟩ : BufTy).Contents (Elt Ideal)) (x13 : (⟨S600000, .i32⟩ : BufTy).Contents (Elt Ideal)) (x14 : (⟨S600000, .i32⟩ : BufTy).Contents (Elt Ideal)) (x15 : (⟨S100000, .i32⟩ : BufTy).Contents (Elt Ideal)) (x16 : (⟨S100000, .i32⟩ : BufTy).Contents (Elt Ideal)) (x17 : (⟨S100000, .i32⟩ : BufTy).Contents (Elt Ideal)) (x18 : (⟨S100000, .i32⟩ : BufTy).Contents (Elt Ideal)) :
    val_main_v190 (F := Ideal) x0 x1 x2 x3 x4 x5 x6 x7 x8 x11 x12 x13 x14 x15 x16 x17 x18 = MovieMix2.mix (val_main_v102 (F := Ideal) x0 x1 x2 x3 x4 x5 x6 x7 x8 x11 x12 x15 x16) (val_main_v146 (F := Ideal) x0 x1 x2 x3 x4 x5 x6 x7 x8 x11 x12 x13 x14 x15 x16 x17 x18) := by
  funext i
  rw [val_main_v190_apply, val_main_v189_apply, val_main_v188_apply, val_main_cst_52_apply]

/-- The reference's output stage (transpose, product, bias along rows) is the output layer of its final movie embedding. -/
theorem logits (x0 : (⟨S200000x128, .f32⟩ : BufTy).Contents (Elt Ideal)) (x1 : (⟨S100000x128, .f32⟩ : BufTy).Contents (Elt Ideal)) (x2 : (⟨S20000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S16x128, .f32⟩ : BufTy).Contents (Elt Ideal)) (x10 : (⟨S16, .f32⟩ : BufTy).Contents (Elt Ideal)) (x11 : (⟨S600000, .i32⟩ : BufTy).Contents (Elt Ideal)) (x12 : (⟨S600000, .i32⟩ : BufTy).Contents (Elt Ideal)) (x13 : (⟨S600000, .i32⟩ : BufTy).Contents (Elt Ideal)) (x14 : (⟨S600000, .i32⟩ : BufTy).Contents (Elt Ideal)) (x15 : (⟨S100000, .i32⟩ : BufTy).Contents (Elt Ideal)) (x16 : (⟨S100000, .i32⟩ : BufTy).Contents (Elt Ideal)) (x17 : (⟨S100000, .i32⟩ : BufTy).Contents (Elt Ideal)) (x18 : (⟨S100000, .i32⟩ : BufTy).Contents (Elt Ideal)) :
    val_main_v198 (F := Ideal) x0 x1 x2 x3 x4 x5 x6 x7 x8 x9 x10 x11 x12 x13 x14 x15 x16 x17 x18 = MovieLogits.layer (val_main_v190 (F := Ideal) x0 x1 x2 x3 x4 x5 x6 x7 x8 x11 x12 x13 x14 x15 x16 x17 x18) x9 x10 := by
  funext i
  rw [val_main_v198_apply, val_main_v195_apply, val_main_v197_apply, val_main_v196_apply]
  simp only [val_main_v194_apply]
  have e1 : ∀ k : Fin 128, idx_main_v194 (ridx_main_v195 i k) = MovieLogits.wi i k := fun k => funext fun a => by
    match a with
    | ⟨0, _⟩ => rfl
    | ⟨1, _⟩ => rfl
  have e2 : idx_main_v196 (idx_main_v197 i) = MovieLogits.bi i := funext fun a => by
    match a with
    | ⟨0, _⟩ => rfl
  simp only [e1, e2]
  rfl

end Cert.KernelIdeal.Bridge

end
-- ==== Proof.Chain.lean ====
/-
  The result, read back through the program.  The contents of the buffers at the twelve boundaries between the
  program's segments are a fold from the launch memory: a pallas_call replaces its output array by the whole-array
  function of its inputs proved for it, a stretch of host operations replaces the buffers it writes, and everything
  else passes through.  Reading the result buffer at the last boundary and walking back gives, stage by stage, the
  same functions of the argument arrays that the reference computes:
    embeddings  h = max (x · Wᵀ + b) 0  for the three node types,
    first-layer aggregates, first-layer combines  c · h + agg,
    the second-layer movie aggregate and combine, and the output layer  h · W_outᵀ + b_out.
-/
import proofs.«117898_j80599356276853_1_alg».proof.Proof.Gen.KernelIdeal.Frame
import proofs.«117898_j80599356276853_1_alg».proof.Proof.Aggregate
import proofs.«117898_j80599356276853_1_alg».proof.Proof.Bridge

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (ρ : Dev nD → PrngReg) (c : Dev nD)

/-- After the first call: the user embedding. -/
theorem user0 : W1 m ρ c (Proc.devRef .tc main_v0) = val_main_v5 (F := Ideal) (m ((c : Thread nD τ).loc main_arg0)) (m ((c : Thread nD τ).loc main_arg3)) (m ((c : Thread nD τ).loc main_arg4)) :=
  (W1_arr m ρ c 3).trans ((UserEmbed.result (V0 m ρ) c).trans (Bridge.user0 _ _ _).symm)

/-- After the second call: the movie embedding. -/
theorem movie0 : W2 m ρ c (Proc.devRef .tc main_v1) = val_main_v11 (F := Ideal) (m ((c : Thread nD τ).loc main_arg1)) (m ((c : Thread nD τ).loc main_arg5)) (m ((c : Thread nD τ).loc main_arg6)) := by
  refine (W2_arr m ρ c 3).trans ((MovieEmbed.result (V1 m ρ) c).trans ?_)
  rw [show V1 m ρ c main_arg1 = (m ((c : Thread nD τ).loc main_arg1)) from (W1_of_ne m ρ c main_arg1 (by decide)),
    show V1 m ρ c main_arg5 = (m ((c : Thread nD τ).loc main_arg5)) from (W1_of_ne m ρ c main_arg5 (by decide)),
    show V1 m ρ c main_arg6 = (m ((c : Thread nD τ).loc main_arg6)) from (W1_of_ne m ρ c main_arg6 (by decide))]
  exact (Bridge.movie0 _ _ _).symm

/-- After the third call: the director embedding. -/
theorem director0 : W3 m ρ c (Proc.devRef .tc main_v2) = val_main_v17 (F := Ideal) (m ((c : Thread nD τ).loc main_arg2)) (m ((c : Thread nD τ).loc main_arg7)) (m ((c : Thread nD τ).loc main_arg8)) := by
  refine (W3_arr m ρ c 3).trans ((DirectorEmbed.result (V2 m ρ) c).trans ?_)
  rw [show V2 m ρ c main_arg2 = (m ((c : Thread nD τ).loc main_arg2)) from ((W2_of_ne m ρ c main_arg2 (by decide)).trans (W1_of_ne m ρ c main_arg2 (by decide))),
    show V2 m ρ c main_arg7 = (m ((c : Thread nD τ).loc main_arg7)) from ((W2_of_ne m ρ c main_arg7 (by decide)).trans (W1_of_ne m ρ c main_arg7 (by decide))),
    show V2 m ρ c main_arg8 = (m ((c : Thread nD τ).loc main_arg8)) from ((W2_of_ne m ρ c main_arg8 (by decide)).trans (W1_of_ne m ρ c main_arg8 (by decide)))]
  exact (Bridge.director0 _ _ _).symm

/-- The three embeddings at the third boundary, where the first stretch of host operations starts. -/
theorem user0_at3 : W3 m ρ c (Proc.devRef .tc main_v0) = val_main_v5 (F := Ideal) (m ((c : Thread nD τ).loc main_arg0)) (m ((c : Thread nD τ).loc main_arg3)) (m ((c : Thread nD τ).loc main_arg4)) := ((W3_of_ne m ρ c main_v0 (by decide)).trans (W2_of_ne m ρ c main_v0 (by decide))).trans (user0 m ρ c)
theorem movie0_at3 : W3 m ρ c (Proc.devRef .tc main_v1) = val_main_v11 (F := Ideal) (m ((c : Thread nD τ).loc main_arg1)) (m ((c : Thread nD τ).loc main_arg5)) (m ((c : Thread nD τ).loc main_arg6)) := (W3_of_ne m ρ c main_v1 (by decide)).trans (movie0 m ρ c)

/-- After the first stretch: the three first-layer aggregates. -/
theorem aggMovie1 : W4 m ρ c (Proc.devRef .tc main_v43) = val_main_v58 (F := Ideal) (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12)) (m ((c : Thread nD τ).loc main_arg15)) (m ((c : Thread nD τ).loc main_arg16)) :=
  Aggregate.movie1 (W3 m ρ c) _ _ _ _ _ _ _ _ _ _ (user0_at3 m ρ c) (director0 m ρ c)
    ((W3_of_ne m ρ c main_arg11 (by decide)).trans ((W2_of_ne m ρ c main_arg11 (by decide)).trans (W1_of_ne m ρ c main_arg11 (by decide)))) ((W3_of_ne m ρ c main_arg12 (by decide)).trans ((W2_of_ne m ρ c main_arg12 (by decide)).trans (W1_of_ne m ρ c main_arg12 (by decide)))) ((W3_of_ne m ρ c main_arg15 (by decide)).trans ((W2_of_ne m ρ c main_arg15 (by decide)).trans (W1_of_ne m ρ c main_arg15 (by decide)))) ((W3_of_ne m ρ c main_arg16 (by decide)).trans ((W2_of_ne m ρ c main_arg16 (by decide)).trans (W1_of_ne m ρ c main_arg16 (by decide))))
theorem aggUser1 : W4 m ρ c (Proc.devRef .tc main_v62) = val_main_v77 (F := Ideal) (m ((c : Thread nD τ).loc main_arg1)) (m ((c : Thread nD τ).loc main_arg5)) (m ((c : Thread nD τ).loc main_arg6)) (m ((c : Thread nD τ).loc main_arg13)) (m ((c : Thread nD τ).loc main_arg14)) :=
  Aggregate.user1 (W3 m ρ c) _ _ _ _ _ (movie0_at3 m ρ c) ((W3_of_ne m ρ c main_arg13 (by decide)).trans ((W2_of_ne m ρ c main_arg13 (by decide)).trans (W1_of_ne m ρ c main_arg13 (by decide)))) ((W3_of_ne m ρ c main_arg14 (by decide)).trans ((W2_of_ne m ρ c main_arg14 (by decide)).trans (W1_of_ne m ρ c main_arg14 (by decide))))
theorem aggDirector1 : W4 m ρ c (Proc.devRef .tc main_v81) = val_main_v96 (F := Ideal) (m ((c : Thread nD τ).loc main_arg1)) (m ((c : Thread nD τ).loc main_arg5)) (m ((c : Thread nD τ).loc main_arg6)) (m ((c : Thread nD τ).loc main_arg17)) (m ((c : Thread nD τ).loc main_arg18)) :=
  Aggregate.director1 (W3 m ρ c) _ _ _ _ _ (movie0_at3 m ρ c) ((W3_of_ne m ρ c main_arg17 (by decide)).trans ((W2_of_ne m ρ c main_arg17 (by decide)).trans (W1_of_ne m ρ c main_arg17 (by decide)))) ((W3_of_ne m ρ c main_arg18 (by decide)).trans ((W2_of_ne m ρ c main_arg18 (by decide)).trans (W1_of_ne m ρ c main_arg18 (by decide))))

/-- After the fourth call: the users' first-layer combine. -/
theorem user1 : W5 m ρ c (Proc.devRef .tc main_v82) = val_main_v99 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) := by
  refine (W5_arr m ρ c 2).trans ((UserMix1.result (V4 m ρ) c).trans ?_)
  rw [show V4 m ρ c main_v0 = val_main_v5 (F := Ideal) (m ((c : Thread nD τ).loc main_arg0)) (m ((c : Thread nD τ).loc main_arg3)) (m ((c : Thread nD τ).loc main_arg4)) from ((Aggregate.through1 (W3 m ρ c) main_v0 (.inl rfl)).trans (user0_at3 m ρ c)),
    show V4 m ρ c main_v62 = val_main_v77 (F := Ideal) (m ((c : Thread nD τ).loc main_arg1)) (m ((c : Thread nD τ).loc main_arg5)) (m ((c : Thread nD τ).loc main_arg6)) (m ((c : Thread nD τ).loc main_arg13)) (m ((c : Thread nD τ).loc main_arg14)) from aggUser1 m ρ c]
  exact (Bridge.user1 _ _ _ _ _ _ _ _).symm

/-- After the fifth call: the movies' first-layer combine. -/
theorem movie1 : W6 m ρ c (Proc.devRef .tc main_v83) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg15)) (m ((c : Thread nD τ).loc main_arg16)) := by
  refine (W6_arr m ρ c 2).trans ((MovieMix1.result (V5 m ρ) c).trans ?_)
  rw [show V5 m ρ c main_v1 = val_main_v11 (F := Ideal) (m ((c : Thread nD τ).loc main_arg1)) (m ((c : Thread nD τ).loc main_arg5)) (m ((c : Thread nD τ).loc main_arg6)) from (((W5_of_ne m ρ c main_v1 (by decide)).trans (Aggregate.through1 (W3 m ρ c) main_v1 (.inr (.inl rfl)))).trans (movie0_at3 m ρ c)),
    show V5 m ρ c main_v43 = val_main_v58 (F := Ideal) (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12)) (m ((c : Thread nD τ).loc main_arg15)) (m ((c : Thread nD τ).loc main_arg16)) from ((W5_of_ne m ρ c main_v43 (by decide)).trans (aggMovie1 m ρ c))]
  exact (Bridge.movie1 _ _ _ _ _ _ _ _ _ _ _ _ _).symm

/-- After the sixth call: the directors' first-layer combine. -/
theorem director1 : W7 m ρ c (Proc.devRef .tc main_v84) = val_main_v105 (F := Ideal) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg17)) (m ((c : Thread nD τ).loc main_arg18)) := by
  refine (W7_arr m ρ c 2).trans ((DirectorMix1.result (V6 m ρ) c).trans ?_)
  rw [show V6 m ρ c main_v2 = val_main_v17 (F := Ideal) (m ((c : Thread nD τ).loc main_arg2)) (m ((c : Thread nD τ).loc main_arg7)) (m ((c : Thread nD τ).loc main_arg8)) from (((W6_of_ne m ρ c main_v2 (by decide)).trans ((W5_of_ne m ρ c main_v2 (by decide)).trans (Aggregate.through1 (W3 m ρ c) main_v2 (.inr (.inr (.inl rfl)))))).trans (director0 m ρ c)),
    show V6 m ρ c main_v81 = val_main_v96 (F := Ideal) (m ((c : Thread nD τ).loc main_arg1)) (m ((c : Thread nD τ).loc main_arg5)) (m ((c : Thread nD τ).loc main_arg6)) (m ((c : Thread nD τ).loc main_arg17)) (m ((c : Thread nD τ).loc main_arg18)) from (((W6_of_ne m ρ c main_v81 (by decide)).trans (W5_of_ne m ρ c main_v81 (by decide))).trans (aggDirector1 m ρ c))]
  exact (Bridge.director1 _ _ _ _ _ _ _ _).symm

/-- After the second stretch: the movies' second-layer aggregate. -/
theorem aggMovie2 : W8 m ρ c (Proc.devRef .tc main_v125) = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  Aggregate.movie2 (W7 m ρ c) _ _ _ _ _ _ _ _ _ _ _ _ _ _ _ _ _
    (((W7_of_ne m ρ c main_v82 (by decide)).trans (W6_of_ne m ρ c main_v82 (by decide))).trans (user1 m ρ c)) (director1 m ρ c)
    ((W7_of_ne m ρ c main_arg11 (by decide)).trans ((W6_of_ne m ρ c main_arg11 (by decide)).trans ((W5_of_ne m ρ c main_arg11 (by decide)).trans ((Aggregate.through1 (W3 m ρ c) main_arg11 (.inr (.inr (.inr (.inl rfl))))).trans ((W3_of_ne m ρ c main_arg11 (by decide)).trans ((W2_of_ne m ρ c main_arg11 (by decide)).trans (W1_of_ne m ρ c main_arg11 (by decide)))))))) ((W7_of_ne m ρ c main_arg12 (by decide)).trans ((W6_of_ne m ρ c main_arg12 (by decide)).trans ((W5_of_ne m ρ c main_arg12 (by decide)).trans ((Aggregate.through1 (W3 m ρ c) main_arg12 (.inr (.inr (.inr (.inr (.inl rfl)))))).trans ((W3_of_ne m ρ c main_arg12 (by decide)).trans ((W2_of_ne m ρ c main_arg12 (by decide)).trans (W1_of_ne m ρ c main_arg12 (by decide)))))))) ((W7_of_ne m ρ c main_arg15 (by decide)).trans ((W6_of_ne m ρ c main_arg15 (by decide)).trans ((W5_of_ne m ρ c main_arg15 (by decide)).trans ((Aggregate.through1 (W3 m ρ c) main_arg15 (.inr (.inr (.inr (.inr (.inr (.inl rfl))))))).trans ((W3_of_ne m ρ c main_arg15 (by decide)).trans ((W2_of_ne m ρ c main_arg15 (by decide)).trans (W1_of_ne m ρ c main_arg15 (by decide)))))))) ((W7_of_ne m ρ c main_arg16 (by decide)).trans ((W6_of_ne m ρ c main_arg16 (by decide)).trans ((W5_of_ne m ρ c main_arg16 (by decide)).trans ((Aggregate.through1 (W3 m ρ c) main_arg16 (.inr (.inr (.inr (.inr (.inr (.inr rfl))))))).trans ((W3_of_ne m ρ c main_arg16 (by decide)).trans ((W2_of_ne m ρ c main_arg16 (by decide)).trans (W1_of_ne m ρ c main_arg16 (by decide))))))))

/-- After the eighth call: the movies' second-layer combine. -/
theorem movie2 : W10 m ρ c (Proc.devRef .tc main_v165) = val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W10_arr m ρ c 2).trans ((MovieMix2.result (V9 m ρ) c).trans ?_)
  rw [show V9 m ρ c main_v83 = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg15)) (m ((c : Thread nD τ).loc main_arg16)) from (((W9_of_ne m ρ c main_v83 (by decide)).trans ((Aggregate.through2 (W7 m ρ c) main_v83 rfl).trans (W7_of_ne m ρ c main_v83 (by decide)))).trans (movie1 m ρ c)),
    show V9 m ρ c main_v125 = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) from ((W9_of_ne m ρ c main_v125 (by decide)).trans (aggMovie2 m ρ c))]
  exact (Bridge.movie2 _ _ _ _ _ _ _ _ _ _ _ _ _ _ _ _ _).symm

/-- The output weight and bias as the last call finds them are the launch contents: the call reads them through
    input windows, so they are what the last boundary holds there, and no segment writes an argument. -/
theorem weight_at11 : V11 m ρ c main_arg9 = (m ((c : Thread nD τ).loc main_arg9)) :=
  ((W12_arr m ρ c 1).trans (((dat9 (V11 m ρ) c).arrAt_in 1 rfl _).trans (A_eq9 (V11 m ρ) c 1))).symm.trans (W12_main_arg9 m ρ c)
theorem bias_at11 : V11 m ρ c main_arg10 = (m ((c : Thread nD τ).loc main_arg10)) :=
  ((W12_arr m ρ c 2).trans (((dat9 (V11 m ρ) c).arrAt_in 2 rfl _).trans (A_eq9 (V11 m ρ) c 2))).symm.trans (W12_main_arg10 m ρ c)

/-- At the last boundary the result buffer holds the reference's result stage of the launch contents. -/
theorem logits : W12 m ρ c (Proc.devRef .tc main_v167) = val_main_v198 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W12_arr m ρ c 3).trans ((MovieLogits.result (V11 m ρ) c).trans ?_)
  rw [show V11 m ρ c main_v165 = val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) from ((W11_of_ne m ρ c main_v165 (by decide)).trans (movie2 m ρ c)),
    weight_at11 m ρ c, bias_at11 m ρ c]
  exact (Bridge.logits _ _ _ _ _ _ _ _ _ _ _ _ _ _ _ _ _ _ _).symm

end Cert.KernelIdeal.Chain

end
-- ==== Proof.lean ====
/-
  The certificate of the heterogeneous two-layer message-passing network: per node type (user, movie, director) an
  input embedding h = max (x · Wᵀ + b) 0, then twice the step  h ← c · h + agg  where agg is the mean over incoming
  edges of the neighbours' embeddings (for movies half the sum of two such means) and c is the single-precision
  literal nearest 1/100, and last the movie logits  h · W_outᵀ + b_out.

  The kernel program computes the embeddings, the combine steps and the logits in ten pallas_calls tiled over rows
  and the edge aggregation by host operations; the reference computes everything by host operations.  On extended
  reals a tile's matrix product into a zero accumulator is the sum Σ_k x[p, k] · W[q, k] that the host product with the
  transposed weight also is, narrowing to half precision is the identity, and both sides multiply by the same literal
  c; the aggregation is the same chain of host operations on both sides.  So the two results are one function of the
  argument arrays, and no algebraic law beyond that identification is needed (in particular none that would need the
  inputs to be finite).

  Frames: the two kernel programs' frames are the generated frame certificates; the reference's frame is its
  generated run with the result dropped.  The idealization rewrote no operation, so there is nothing to preserve.
-/
import proofs.«117898_j80599356276853_1_alg».proof.Defs
import proofs.«117898_j80599356276853_1_alg».proof.Proof.Gen.Kernel
import proofs.«117898_j80599356276853_1_alg».proof.Proof.Gen.Kernel.Skeleton
import proofs.«117898_j80599356276853_1_alg».proof.Proof.Gen.Kernel.Launch
import proofs.«117898_j80599356276853_1_alg».proof.Proof.Gen.Kernel.Points
import proofs.«117898_j80599356276853_1_alg».proof.Proof.Gen.Kernel.Frame
import proofs.«117898_j80599356276853_1_alg».proof.Proof.Gen.KernelIdeal
import proofs.«117898_j80599356276853_1_alg».proof.Proof.Gen.KernelIdeal.Skeleton
import proofs.«117898_j80599356276853_1_alg».proof.Proof.Gen.KernelIdeal.Launch
import proofs.«117898_j80599356276853_1_alg».proof.Proof.Gen.KernelIdeal.Points
import proofs.«117898_j80599356276853_1_alg».proof.Proof.Gen.KernelIdeal.Frame
import proofs.«117898_j80599356276853_1_alg».proof.Proof.Gen.ReferenceIdeal
import proofs.«117898_j80599356276853_1_alg».proof.Proof.Gen.Pre_finite_inputs
import proofs.«117898_j80599356276853_1_alg».proof.Proof.Gen.ReferenceIdeal.Run
import proofs.«117898_j80599356276853_1_alg».proof.Proof.Gen.ReferenceIdeal.Read
import proofs.«117898_j80599356276853_1_alg».proof.Proof.WholeRun
import proofs.«117898_j80599356276853_1_alg».proof.Proof.Chain
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result: the kernel program's result buffer holds, at the last boundary, the
    reference's result stage of the launch contents, and the reference's run ends at that stage of its own arguments,
    which agree. -/
theorem algebraic : Cert.algebraic_KernelIdeal_ReferenceIdeal := by
  intro m ρ m' ρ' _ hagree
  refine ⟨fun c => Cert.KernelIdeal.Gen.W12 m ρ c (Proc.devRef .tc Cert.KernelIdeal.main_v167),
    Cert.KernelIdeal.WholeRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18⟩ := hagree c
  refine ((Cert.ReferenceIdeal.Read.val_main_v198_eq m' c).trans ?_).trans (Cert.KernelIdeal.Chain.logits m ρ c).symm
  rw [h0, h1, h2, h3, h4, h5, h6, h7, h8, h9, h10, h11, h12, h13, h14, h15, h16, h17, h18]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
